-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x16384x1 : Shape := ⟨4, ![8, 8, 16384, 1]⟩
abbrev S8x8x16384x64 : Shape := ⟨4, ![8, 8, 16384, 64]⟩
abbrev S_ : Shape := ⟨0, ![]⟩
abbrev S8x8x1 : Shape := ⟨3, ![8, 8, 1]⟩

class Facts : Prop where
  bcast_S_S8x8x16384x1 : S_.BroadcastsInDim S8x8x16384x1 (![] : Fin 0 → Fin S8x8x16384x1.rank)
  reducesTo_S8x8x16384x1_S_d0_1_2_3 : S8x8x16384x1.ReducesTo [0, 1, 2, 3] S_
  h_S_ : 0 < S_.numel
  bcast_S_S8x8x16384x64 : S_.BroadcastsInDim S8x8x16384x64 (![] : Fin 0 → Fin S8x8x16384x64.rank)
  reducesTo_S8x8x16384x64_S_d0_1_2_3 : S8x8x16384x64.ReducesTo [0, 1, 2, 3] S_
  reducesTo_S8x8x16384x1_S8x8x1_d2 : S8x8x16384x1.ReducesTo [2] S8x8x1
  bcast_S_S8x8x1 : S_.BroadcastsInDim S8x8x1 (![] : Fin 0 → Fin S8x8x1.rank)
  reducesTo_S8x8x1_S_d0_1_2 : S8x8x1.ReducesTo [0, 1, 2] S_

variable [Facts]

def fn_part1 {F : FTy → Type} [FloatOps F] (main_arg1 : FVec F S8x8x16384x1 .f32) (main_v13 : IVec S_ 1) (main_v15 : FVec F S8x8x1 .f32) (main_cst_5 : FVec F S_ .f32) : IVec S_ 1 :=
  let main_v16 : FVec F S8x8x1 .f32 := broadcastInDim S8x8x1 ![] bcast_S_S8x8x1 main_cst_5
  let main_v17 : IVec S8x8x1 1 := cmpf .ogt main_v15 main_v16
  let main_c_6 : IVec S_ 1 := constantI S_ 1 1#1
  let main_v18 : IVec S_ 1 := (fun x v => Host.reduce IntOp.andi x v reducesTo_S8x8x1_S_d0_1_2 h_S_) main_v17 main_c_6
  let main_v19 : IVec S_ 1 := andi main_v13 main_v18
  let main_v20 : FVec F S8x8x16384x1 .f32 := mulf main_arg1 main_arg1
  let main_cst_7 : FVec F S_ .f32 := constant S_ .f32 0x00000000#32
  let main_v21 : FVec F S8x8x1 .f32 := (fun x v => Host.reduceAdd x v reducesTo_S8x8x16384x1_S8x8x1_d2 h_S_) main_v20 main_cst_7
  let main_cst_8 : FVec F S_ .f32 := constant S_ .f32 0x00000000#32
  let main_v22 : FVec F S8x8x1 .f32 := broadcastInDim S8x8x1 ![] bcast_S_S8x8x1 main_cst_8
  let main_v23 : IVec S8x8x1 1 := cmpf .ogt main_v21 main_v22
  let main_c_9 : IVec S_ 1 := constantI S_ 1 1#1
  let main_v24 : IVec S_ 1 := (fun x v => Host.reduce IntOp.andi x v reducesTo_S8x8x1_S_d0_1_2 h_S_) main_v23 main_c_9
  let main_v25 : IVec S_ 1 := andi main_v19 main_v24
  main_v25

def fn {F : FTy → Type} [FloatOps F] (main_arg0 : FVec F S8x8x16384x1 .f32) (main_arg1 : FVec F S8x8x16384x1 .f32) (main_arg2 : FVec F S8x8x16384x64 .f32) : IVec S_ 1 :=
  let main_v0 : FVec F S8x8x16384x1 .f32 := Host.absf main_arg0
  let main_cst : FVec F S_ .f32 := constant S_ .f32 0x7F800000#32
  let main_v1 : FVec F S8x8x16384x1 .f32 := broadcastInDim S8x8x16384x1 ![] bcast_S_S8x8x16384x1 main_cst
  let main_v2 : IVec S8x8x16384x1 1 := cmpf .olt main_v0 main_v1
  let main_c : IVec S_ 1 := constantI S_ 1 1#1
  let main_v3 : IVec S_ 1 := (fun x v => Host.reduce IntOp.andi x v reducesTo_S8x8x16384x1_S_d0_1_2_3 h_S_) main_v2 main_c
  let main_v4 : FVec F S8x8x16384x1 .f32 := Host.absf main_arg1
  let main_cst_0 : FVec F S_ .f32 := constant S_ .f32 0x7F800000#32
  let main_v5 : FVec F S8x8x16384x1 .f32 := broadcastInDim S8x8x16384x1 ![] bcast_S_S8x8x16384x1 main_cst_0
  let main_v6 : IVec S8x8x16384x1 1 := cmpf .olt main_v4 main_v5
  let main_c_1 : IVec S_ 1 := constantI S_ 1 1#1
  let main_v7 : IVec S_ 1 := (fun x v => Host.reduce IntOp.andi x v reducesTo_S8x8x16384x1_S_d0_1_2_3 h_S_) main_v6 main_c_1
  let main_v8 : IVec S_ 1 := andi main_v3 main_v7
  let main_v9 : FVec F S8x8x16384x64 .f32 := Host.absf main_arg2
  let main_cst_2 : FVec F S_ .f32 := constant S_ .f32 0x7F800000#32
  let main_v10 : FVec F S8x8x16384x64 .f32 := broadcastInDim S8x8x16384x64 ![] bcast_S_S8x8x16384x64 main_cst_2
  let main_v11 : IVec S8x8x16384x64 1 := cmpf .olt main_v9 main_v10
  let main_c_3 : IVec S_ 1 := constantI S_ 1 1#1
  let main_v12 : IVec S_ 1 := (fun x v => Host.reduce IntOp.andi x v reducesTo_S8x8x16384x64_S_d0_1_2_3 h_S_) main_v11 main_c_3
  let main_v13 : IVec S_ 1 := andi main_v8 main_v12
  let main_v14 : FVec F S8x8x16384x1 .f32 := mulf main_arg0 main_arg0
  let main_cst_4 : FVec F S_ .f32 := constant S_ .f32 0x00000000#32
  let main_v15 : FVec F S8x8x1 .f32 := (fun x v => Host.reduceAdd x v reducesTo_S8x8x16384x1_S8x8x1_d2 h_S_) main_v14 main_cst_4
  let main_cst_5 : FVec F S_ .f32 := constant S_ .f32 0x00000000#32
  fn_part1 (F := F) main_arg1 main_v13 main_v15 main_cst_5
-- ==== Kernel.lean ====
abbrev S8x8x16384x1 : Shape := ⟨4, ![8, 8, 16384, 1]⟩
abbrev S8x8x16384x64 : Shape := ⟨4, ![8, 8, 16384, 64]⟩
abbrev S64x16384 : Shape := ⟨2, ![64, 16384]⟩
abbrev S64x1x16384 : Shape := ⟨3, ![64, 1, 16384]⟩
abbrev S64x16384x64 : Shape := ⟨3, ![64, 16384, 64]⟩
abbrev S64x1x1 : Shape := ⟨3, ![64, 1, 1]⟩
abbrev S64x1x64 : Shape := ⟨3, ![64, 1, 64]⟩
abbrev S1x1x16384 : Shape := ⟨3, ![1, 1, 16384]⟩
abbrev S1x16384x64 : Shape := ⟨3, ![1, 16384, 64]⟩
abbrev S1x1x1 : Shape := ⟨3, ![1, 1, 1]⟩
abbrev S1x1x64 : Shape := ⟨3, ![1, 1, 64]⟩
abbrev S1x16384 : Shape := ⟨2, ![1, 16384]⟩
abbrev S16384x64 : Shape := ⟨2, ![16384, 64]⟩
abbrev S1 : Shape := ⟨1, ![1]⟩
abbrev S1x1 : Shape := ⟨2, ![1, 1]⟩
abbrev S1x64 : Shape := ⟨2, ![1, 64]⟩

abbrev nBuf : Space → Nat
  | .hbm => 13
  | .vmem => 22
  | .smem => 0
  | _ => 0

abbrev bufTy : (tb : Table) → Fin (tcTables nBuf tb) → BufTy
  | .hbm, ⟨0, _⟩ => ⟨S8x8x16384x1, .f32⟩
  | .hbm, ⟨1, _⟩ => ⟨S8x8x16384x1, .f32⟩
  | .hbm, ⟨2, _⟩ => ⟨S8x8x16384x64, .f32⟩
  | .hbm, ⟨3, _⟩ => ⟨S64x16384, .f32⟩
  | .hbm, ⟨4, _⟩ => ⟨S64x1x16384, .f32⟩
  | .hbm, ⟨5, _⟩ => ⟨S64x16384, .f32⟩
  | .hbm, ⟨6, _⟩ => ⟨S64x1x16384, .f32⟩
  | .hbm, ⟨7, _⟩ => ⟨S64x16384x64, .f32⟩
  | .hbm, ⟨8, _⟩ => ⟨S64x1x1, .f32⟩
  | .hbm, ⟨9, _⟩ => ⟨S64x1x1, .f32⟩
  | .hbm, ⟨10, _⟩ => ⟨S64x1x64, .f32⟩
  | .hbm, ⟨11, _⟩ => ⟨S64x16384x64, .f32⟩
  | .hbm, ⟨12, _⟩ => ⟨S8x8x16384x64, .f32⟩
  | .local _ .vmem, ⟨0, _⟩ => ⟨S1x1x16384, .f32⟩
  | .local _ .vmem, ⟨1, _⟩ => ⟨S1x1x16384, .f32⟩
  | .local _ .vmem, ⟨2, _⟩ => ⟨S1x1x16384, .f32⟩
  | .local _ .vmem, ⟨3, _⟩ => ⟨S1x1x16384, .f32⟩
  | .local _ .vmem, ⟨4, _⟩ => ⟨S1x16384x64, .f32⟩
  | .local _ .vmem, ⟨5, _⟩ => ⟨S1x16384x64, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x64, .f32⟩
  | .local _ .vmem, ⟨11, _⟩ => ⟨S1x1x64, .f32⟩
  | .local _ .vmem, ⟨12, _⟩ => ⟨S1x1x16384, .f32⟩
  | .local _ .vmem, ⟨13, _⟩ => ⟨S1x1x16384, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x1x64, .f32⟩
  | .local _ .vmem, ⟨19, _⟩ => ⟨S1x1x64, .f32⟩
  | .local _ .vmem, ⟨20, _⟩ => ⟨S1x16384x64, .f32⟩
  | .local _ .vmem, ⟨21, _⟩ => ⟨S1x16384x64, .f32⟩
  | _, _ => ⟨S8x8x16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16384x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8x8x16384x1_S64x16384 : S8x8x16384x1.ShapeCasts S64x16384
  bcast_S64x16384_S64x1x16384_0_2 : S64x16384.BroadcastsInDim S64x1x16384 (![0, 2] : Fin 2 → Fin S64x1x16384.rank)
  shapeCasts_S8x8x16384x64_S64x16384x64 : S8x8x16384x64.ShapeCasts S64x16384x64
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  reduces_S1x16384_S1 : S1x16384.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  broadcasts_S1x1_S1x64 : S1x1.Broadcasts S1x64
  shapeCasts_S16384x64_S1x16384x64 : S16384x64.ShapeCasts S1x16384x64
  shapeCasts_S64x16384x64_S8x8x16384x64 : S64x16384x64.ShapeCasts S8x8x16384x64
  dot_S1x16384_S16384x64_S1x64_1_0_0_1_n_n_wf : DotDims.WF S1x16384 S16384x64 S1x64 [1] [0] [0] [1] [] []
  dot_S1x16384_S1x64_S16384x64_0_0_1_1_n_n_wf : DotDims.WF S1x16384 S1x64 S16384x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16384.size a ≤ S64x1x16384.size a
  hwx0_0 : ∀ i : grid0.Coords, EltTy.bits .f32 = 32 ∨ (Rect.block (s := S64x1x16384) S1x1x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S64x1x16384.size a
  hwx0_1 : ∀ i : grid0.Coords, EltTy.bits .f32 = 32 ∨ (Rect.block (s := S64x1x16384) S1x1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x64.size a ≤ S64x16384x64.size a
  hwx0_2 : ∀ i : grid0.Coords, EltTy.bits .f32 = 32 ∨ (Rect.block (s := S64x16384x64) S1x16384x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S64x1x1.size a
  hwx0_4 : ∀ i : grid0.Coords, EltTy.bits .f32 = 32 ∨ (Rect.block (s := S64x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S64x1x64.size a
  hwx0_5 : ∀ i : grid0.Coords, EltTy.bits .f32 = 32 ∨ (Rect.block (s := S64x1x64) S1x1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x16384.size a ≤ S64x1x16384.size a
  hwx1_0 : ∀ i : grid1.Coords, EltTy.bits .f32 = 32 ∨ (Rect.block (s := S64x1x16384) S1x1x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1.size a ≤ S64x1x1.size a
  hwx1_1 : ∀ i : grid1.Coords, EltTy.bits .f32 = 32 ∨ (Rect.block (s := S64x1x1) S1x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S64x1x1.size a
  hwx1_2 : ∀ i : grid1.Coords, EltTy.bits .f32 = 32 ∨ (Rect.block (s := S64x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S64x1x64.size a
  hwx1_3 : ∀ i : grid1.Coords, EltTy.bits .f32 = 32 ∨ (Rect.block (s := S64x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16384x64.size a ≤ S64x16384x64.size a
  hwx1_4 : ∀ i : grid1.Coords, EltTy.bits .f32 = 32 ∨ (Rect.block (s := S64x16384x64) S1x16384x64.size (cc1_transform_4 i) (hinb1_4 i)).WholeWords (EltTy.packing .f32)

variable [Facts₀]

def dot_S1x16384_S16384x64_S1x64_1_0_0_1_n_n : DotDims S1x16384 S16384x64 S1x64 where
  lhsContracting := [1]
  rhsContracting := [0]
  lhsNonContracting := [0]
  rhsNonContracting := [1]
  lhsBatch := []
  rhsBatch := []
  wf := dot_S1x16384_S16384x64_S1x64_1_0_0_1_n_n_wf
def dot_S1x16384_S1x64_S16384x64_0_0_1_1_n_n : DotDims S1x16384 S1x64 S16384x64 where
  lhsContracting := [0]
  rhsContracting := [0]
  lhsNonContracting := [1]
  rhsNonContracting := [1]
  lhsBatch := []
  rhsBatch := []
  wf := dot_S1x16384_S1x64_S16384x64_0_0_1_1_n_n_wf

abbrev win0_0 : Pipeline.Window sig grid0 :=
  Pipeline.Window.ofSpec (Memref.whole main_v1) S1x1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16384x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S1x1x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S1x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_2) S1x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x16384x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x8x16384x1 : Shape := ⟨4, ![8, 8, 16384, 1]⟩
abbrev S8x8x16384x64 : Shape := ⟨4, ![8, 8, 16384, 64]⟩
abbrev S_ : Shape := ⟨0, ![]⟩
abbrev S8x8x1 : Shape := ⟨3, ![8, 8, 1]⟩
abbrev S8x8x1x1 : Shape := ⟨4, ![8, 8, 1, 1]⟩
abbrev S8x8x1x64 : Shape := ⟨4, ![8, 8, 1, 64]⟩

abbrev nBuf : Space → Nat
  | .hbm => 22
  | .vmem => 0
  | .smem => 0
  | _ => 0

abbrev bufTy : (tb : Table) → Fin (tcTables nBuf tb) → BufTy
  | .hbm, ⟨0, _⟩ => ⟨S8x8x16384x1, .f32⟩
  | .hbm, ⟨1, _⟩ => ⟨S8x8x16384x1, .f32⟩
  | .hbm, ⟨2, _⟩ => ⟨S8x8x16384x64, .f32⟩
  | .hbm, ⟨3, _⟩ => ⟨S8x8x16384x1, .f32⟩
  | .hbm, ⟨4, _⟩ => ⟨S_, .f32⟩
  | .hbm, ⟨5, _⟩ => ⟨S8x8x1, .f32⟩
  | .hbm, ⟨6, _⟩ => ⟨S8x8x1, .f32⟩
  | .hbm, ⟨7, _⟩ => ⟨S8x8x1x1, .f32⟩
  | .hbm, ⟨8, _⟩ => ⟨S8x8x16384x1, .f32⟩
  | .hbm, ⟨9, _⟩ => ⟨S_, .f32⟩
  | .hbm, ⟨10, _⟩ => ⟨S8x8x1, .f32⟩
  | .hbm, ⟨11, _⟩ => ⟨S8x8x1, .f32⟩
  | .hbm, ⟨12, _⟩ => ⟨S8x8x1x1, .f32⟩
  | .hbm, ⟨13, _⟩ => ⟨S8x8x16384x1, .f32⟩
  | .hbm, ⟨14, _⟩ => ⟨S8x8x16384x1, .f32⟩
  | .hbm, ⟨15, _⟩ => ⟨S8x8x16384x1, .f32⟩
  | .hbm, ⟨16, _⟩ => ⟨S8x8x16384x1, .f32⟩
  | .hbm, ⟨17, _⟩ => ⟨S8x8x1x64, .f32⟩
  | .hbm, ⟨18, _⟩ => ⟨S_, .f32⟩
  | .hbm, ⟨19, _⟩ => ⟨S8x8x1x64, .f32⟩
  | .hbm, ⟨20, _⟩ => ⟨S8x8x1x64, .f32⟩
  | .hbm, ⟨21, _⟩ => ⟨S8x8x16384x64, .f32⟩
  | _, _ => ⟨S8x8x16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8x8x16384x1_S8x8x1_d2 : S8x8x16384x1.ReducesTo [2] S8x8x1
  h_S_ : 0 < S_.numel
  bcast_S8x8x1_S8x8x1x1_0_1_2 : S8x8x1.BroadcastsInDim S8x8x1x1 (![0, 1, 2] : Fin 3 → Fin S8x8x1x1.rank)
  bcast_S8x8x1x1_S8x8x16384x1_0_1_2_3 : S8x8x1x1.BroadcastsInDim S8x8x16384x1 (![0, 1, 2, 3] : Fin 4 → Fin S8x8x16384x1.rank)
  bcast_S_S8x8x1x64 : S_.BroadcastsInDim S8x8x1x64 (![] : Fin 0 → Fin S8x8x1x64.rank)
  dot_S8x8x16384x1_S8x8x16384x64_S8x8x1x64_2_2_3_3_01_01_wf : DotDims.WF S8x8x16384x1 S8x8x16384x64 S8x8x1x64 [2] [2] [3] [3] [0, 1] [0, 1]
  dot_S8x8x16384x1_S8x8x1x64_S8x8x16384x64_3_2_2_3_01_01_wf : DotDims.WF S8x8x16384x1 S8x8x1x64 S8x8x16384x64 [3] [2] [2] [3] [0, 1] [0, 1]

variable [Facts₀]

def dot_S8x8x16384x1_S8x8x16384x64_S8x8x1x64_2_2_3_3_01_01 : DotDims S8x8x16384x1 S8x8x16384x64 S8x8x1x64 where
  lhsContracting := [2]
  rhsContracting := [2]
  lhsNonContracting := [3]
  rhsNonContracting := [3]
  lhsBatch := [0, 1]
  rhsBatch := [0, 1]
  wf := dot_S8x8x16384x1_S8x8x16384x64_S8x8x1x64_2_2_3_3_01_01_wf
def dot_S8x8x16384x1_S8x8x1x64_S8x8x16384x64_3_2_2_3_01_01 : DotDims S8x8x16384x1 S8x8x1x64 S8x8x16384x64 where
  lhsContracting := [3]
  rhsContracting := [2]
  lhsNonContracting := [2]
  rhsNonContracting := [3]
  lhsBatch := [0, 1]
  rhsBatch := [0, 1]
  wf := dot_S8x8x16384x1_S8x8x1x64_S8x8x16384x64_3_2_2_3_01_01_wf

class Facts : Prop extends Facts₀ where

variable [Facts]
-- ==== Proof.Spec.lean ====
/-
  Unit-key linear attention with normalised queries and keys, on the extended reals. For every head `(b, h)` the
  queries `q` and keys `k` are single columns of length 16384 and the values `v` a 16384 × 64 matrix. With
  `‖q‖² = ∑ₛ q s · q s`, `‖k‖² = ∑ₛ k s · k s` and the key-value row `(kᵀv) e = ∑ₜ k t · v t e`, the result at
  `(b, h, s, e)` is written here in two arrangements:
  * `attnAt`: `q s · (((kᵀv) e · 1) · (‖q‖² · ‖k‖²)^(-1/2))` — one reciprocal square root of the product of the two
    squared norms, applied to the key-value row;
  * `refAt`: `(q s / ‖q‖) · ((∑ₜ (k t / ‖k‖) · v t e) / 1)` — queries and keys divided by their norms first.
  The two agree wherever every entry is a real number and both squared norms are positive (module `Algebra`).
-/
import Idealize.ShloMosaic.PureOps.Ideal
import Idealize.ShloMosaic.Lib.ValueIdx

noncomputable section

open scoped BigOperators

namespace Cert.NormAttn

open Idealize.ShloMosaic Idealize.ShloMosaic.ValueIdx

/-- The shape of the queries and of the keys: one column per head. -/
abbrev SQ : Shape := ⟨4, ![8, 8, 16384, 1]⟩
/-- The shape of the values and of the result. -/
abbrev SV : Shape := ⟨4, ![8, 8, 16384, 64]⟩

/-- The float word of `1.0`, as an extended real. -/
abbrev one : EReal := Ideal.ofBits .f32 0x3F800000#32

/-- `‖x‖²` of head `(b, h)`: the sum of the squares down the sequence axis. -/
def normSq (x : SQ.Idx → EReal) (b h : Fin 8) : EReal :=
  ∑ s : Fin 16384, x (ix4 b h s (0 : Fin 1)) * x (ix4 b h s (0 : Fin 1))

/-- Entry `e` of the key-value row `kᵀv` of head `(b, h)`. -/
def keyValue (k : SQ.Idx → EReal) (v : SV.Idx → EReal) (b h : Fin 8) (e : Fin 64) : EReal :=
  ∑ t : Fin 16384, k (ix4 b h t (0 : Fin 1)) * v (ix4 b h t e)

/-- The result with ONE reciprocal square root, of the product of the squared norms. -/
def attnAt (q k : SQ.Idx → EReal) (v : SV.Idx → EReal) (b h : Fin 8) (s : Fin 16384) (e : Fin 64) : EReal :=
  q (ix4 b h s (0 : Fin 1)) * ((keyValue k v b h e * one) * Ideal.rsqrt (normSq q b h * normSq k b h))

/-- The result with queries and keys each divided by their norm. -/
def refAt (q k : SQ.Idx → EReal) (v : SV.Idx → EReal) (b h : Fin 8) (s : Fin 16384) (e : Fin 64) : EReal :=
  Ideal.div (q (ix4 b h s (0 : Fin 1))) (Ideal.sqrt (normSq q b h))
    * Ideal.div (∑ t : Fin 16384, Ideal.div (k (ix4 b h t (0 : Fin 1))) (Ideal.sqrt (normSq k b h)) * v (ix4 b h t e)) one

/-- The whole result array, index by index, in the first arrangement. -/
def attn (q k : SQ.Idx → EReal) (v : SV.Idx → EReal) : SV.Idx → EReal :=
  fun j => attnAt q k v (j 0) (j 1) (j 2) (j 3)

end Cert.NormAttn

end
-- ==== Proof.Algebra.lean ====
/-
  The two arrangements of module `Spec` agree. Where every entry is a real number, the two squared norms `A`, `B`
  and the key-value entry `C` are real, and for `A, B > 0` the quotients by `√A`, `√B` are products with their
  inverses and `(A · B)^(-1/2) = (√A)⁻¹ · (√B)⁻¹`; so `(a / √A) · ((∑ₜ (k t / √B) · v t) / 1) = a · ((C · 1) · (A · B)^(-1/2))`
  is an identity of real numbers, carried to the extended reals through the inclusion, which commutes with finite
  sums and products.
-/
import proofs.«148077_j37031208026419_2_alg».proof.Proof.Spec
import Mathlib.Tactic

noncomputable section

open scoped BigOperators

namespace Cert.NormAttn

open Idealize.ShloMosaic Idealize.ShloMosaic.ValueIdx

/-- The float word `0x3F800000` has sign `+`, biased exponent `127` and zero fraction: it denotes
    `2^23 · 2^(127 - 127 - 23) = 1`. -/
theorem one_eq : one = (1 : EReal) := by
  simp [one, Ideal.ofBits, Ideal.ieee, -EReal.coe_mul]
  norm_num

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: dividing the query by `√A` and each key by `√B` is the same as
    multiplying the key-value sum once by `(√(A·B))⁻¹`, because `√(A·B) = √A · √B` for `A ≥ 0`. -/
theorem real_identity {ι : Type*} (s : Finset ι) (a A B : ℝ) (hA : 0 < A) (hB : 0 < B) (κ ν : ι → ℝ) :
    (a * (1 / Real.sqrt A)) * ((∑ t ∈ s, (κ t * (1 / Real.sqrt B)) * ν t) * (1 / 1))
      = a * (((∑ t ∈ s, κ t * ν t) * 1) * (Real.sqrt (A * B))⁻¹) := by
  have hsA : Real.sqrt A ≠ 0 := (Real.sqrt_pos.mpr hA).ne'
  have hsB : Real.sqrt B ≠ 0 := (Real.sqrt_pos.mpr hB).ne'
  have hsum : (∑ t ∈ s, (κ t * (1 / Real.sqrt B)) * ν t) = (∑ t ∈ s, κ t * ν t) * (1 / Real.sqrt B) := by
    rw [Finset.sum_mul]
    exact Finset.sum_congr rfl (fun t _ => by ring)
  rw [hsum, Real.sqrt_mul hA.le]
  field_simp

/-- Where every entry is a real and both squared norms are positive, the two arrangements agree: with real
    witnesses for the entries, `‖q‖² = A` and `‖k‖² = B` are positive reals, the square roots and the reciprocal
    square root are the real ones, division by a nonzero real is multiplication by its reciprocal, and the claim
    is the identity over the reals above. -/
theorem refAt_eq_attnAt (q k : SQ.Idx → EReal) (v : SV.Idx → EReal)
    (hq : ∀ i, ∃ r : ℝ, q i = (r : EReal)) (hk : ∀ i, ∃ r : ℝ, k i = (r : EReal)) (hv : ∀ i, ∃ r : ℝ, v i = (r : EReal))
    (b h : Fin 8) (hA : 0 < normSq q b h) (hB : 0 < normSq k b h) (s : Fin 16384) (e : Fin 64) :
    refAt q k v b h s e = attnAt q k v b h s e := by
  choose qr hqr using hq
  choose kr hkr using hk
  choose vr hvr using hv
  -- the two squared norms are (coercions of) real sums
  have hNq : normSq q b h
      = ((∑ t : Fin 16384, qr (ix4 b h t (0 : Fin 1)) * qr (ix4 b h t (0 : Fin 1)) : ℝ) : EReal) := by
    unfold normSq
    rw [coe_finset_sum]
    exact Finset.sum_congr rfl (fun t _ => by rw [hqr, EReal.coe_mul])
  have hNk : normSq k b h
      = ((∑ t : Fin 16384, kr (ix4 b h t (0 : Fin 1)) * kr (ix4 b h t (0 : Fin 1)) : ℝ) : EReal) := by
    unfold normSq
    rw [coe_finset_sum]
    exact Finset.sum_congr rfl (fun t _ => by rw [hkr, EReal.coe_mul])
  generalize hAdef : (∑ t : Fin 16384, qr (ix4 b h t (0 : Fin 1)) * qr (ix4 b h t (0 : Fin 1)) : ℝ) = A at hNq
  generalize hBdef : (∑ t : Fin 16384, kr (ix4 b h t (0 : Fin 1)) * kr (ix4 b h t (0 : Fin 1)) : ℝ) = B at hNk
  have hA' : 0 < A := by rw [hNq] at hA; exact_mod_cast hA
  have hB' : 0 < B := by rw [hNk] at hB; exact_mod_cast hB
  have hAB : 0 < A * B := mul_pos hA' hB'
  have hsA : Real.sqrt A ≠ 0 := (Real.sqrt_pos.mpr hA').ne'
  have hsB : Real.sqrt B ≠ 0 := (Real.sqrt_pos.mpr hB').ne'
  -- the key-value entry is a real sum
  have hKV : keyValue k v b h e
      = ((∑ t : Fin 16384, kr (ix4 b h t (0 : Fin 1)) * vr (ix4 b h t e) : ℝ) : EReal) := by
    unfold keyValue
    rw [coe_finset_sum]
    exact Finset.sum_congr rfl (fun t _ => by rw [hkr, hvr, EReal.coe_mul])
  -- the reference's inner sum, with each key divided by the norm, is a real sum too
  have hRef : (∑ t : Fin 16384, Ideal.div (k (ix4 b h t (0 : Fin 1))) (Ideal.sqrt (normSq k b h)) * v (ix4 b h t e))
      = ((∑ t : Fin 16384, (kr (ix4 b h t (0 : Fin 1)) * (1 / Real.sqrt B)) * vr (ix4 b h t e) : ℝ) : EReal) := by
    rw [coe_finset_sum, hNk, Ideal.sqrt_coe, if_neg (not_lt.mpr hB'.le)]
    exact Finset.sum_congr rfl (fun t _ => by
      rw [Ideal.div_coe hsB, hkr, hvr, ← EReal.coe_mul, ← EReal.coe_mul])
  have h11 : ((1 : ℝ) : EReal) = (1 : EReal) := rfl
  unfold refAt attnAt
  rw [hRef, hKV, hNq, hNk, one_eq, ← h11, Ideal.div_coe one_ne_zero,
    Ideal.sqrt_coe, if_neg (not_lt.mpr hA'.le), Ideal.div_coe hsA, hqr,
    ← EReal.coe_mul A B, Ideal.rsqrt_coe, if_neg (not_lt.mpr hAB.le), if_neg hAB.ne',
    ← EReal.coe_mul, ← EReal.coe_mul, ← EReal.coe_mul, ← EReal.coe_mul, ← EReal.coe_mul, ← EReal.coe_mul]
  exact congrArg _ (real_identity Finset.univ _ A B hA' hB' _ _)

end Cert.NormAttn

end
-- ==== Proof.PreFacts.lean ====
/-
  The precondition decoded. The test `finite_inputs` is the conjunction of five "for all" tests: `|q| < +∞`,
  `|k| < +∞`, `|v| < +∞` at every entry, and `∑ₛ q s · q s > 0`, `∑ₛ k s · k s > 0` at every head. On the extended
  reals an `x` with `max x (-x) < ⊤` is neither `⊥` nor `⊤`, so it is a real number; and the host's sum over the
  sequence axis from the zero word is the squared norm `normSq` of the specification.
-/
import proofs.«148077_j37031208026419_2_alg».proof.Proof.Spec
import proofs.«148077_j37031208026419_2_alg».proof.Pre_finite_inputs
import Idealize.ShloMosaic.Lib.ReduceAll
import Idealize.ShloMosaic.PureOps.Ideal.Laws

noncomputable section

open scoped BigOperators

namespace Cert.NormAttn

open Idealize.ShloMosaic Idealize.ShloMosaic.ValueIdx
open Cert.Pre_finite_inputs

/-- The scalar shape has one index. -/
instance : Subsingleton S_.Idx := ⟨fun a b => funext fun d => d.elim0⟩

/-- The float word `0x7F800000` (sign 0, exponent all ones, fraction 0) denotes `+∞`. -/
theorem inf_word : Ideal.ofBits .f32 0x7F800000#32 = ⊤ := by
  simp [Ideal.ofBits, Ideal.ieee]

/-- An extended real whose absolute value `max x (-x)` is strictly below `+∞` is a real number:
    at `⊥` and at `⊤` the maximum is `⊤`. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

/-- The comparison `a > 0` (against the zero word) that came out true says `0 < a`. -/
theorem pos_of_cmp (a : EReal) (h : Ideal.cmp .ogt a (Ideal.ofBits .f32 0x00000000#32) = 1#1) : 0 < a := by
  rw [Ideal.ofBits_zero_f32] at h
  have hb : ∀ c : Bool, BitVec.ofBool c = 1#1 → c = true := by decide
  exact of_decide_eq_true (hb _ h)

/-- The sum of `x · x` over the sequence axis, started at the zero word, read at head `(b, h)`, is `normSq x b h`:
    `0 + ∑ₛ x (b, h, s, 0) · x (b, h, s, 0)`. -/
theorem sumSq_eq [Cert.Pre_finite_inputs.Facts] (x : FVec Ideal Cert.Pre_finite_inputs.S8x8x16384x1 .f32) (b h : Fin 8) :
    Host.reduceAdd (F := Ideal) (mulf x x) (constant (F := Ideal) S_ .f32 0x00000000#32)
        Facts.reducesTo_S8x8x16384x1_S8x8x1_d2 Facts.h_S_ (ix3 b h (0 : Fin 1)) = normSq x b h := by
  unfold normSq
  simp only [Host.reduceAdd, Ideal.hostReduceAdd_def]
  rw [Ideal.hostReduceAdd_single Facts.reducesTo_S8x8x16384x1_S8x8x1_d2 (by decide)]
  have z : (constant (F := Ideal) S_ .f32 0x00000000#32) (Shape.Idx.first Facts.h_S_) = 0 := Ideal.ofBits_zero_f32
  rw [z, zero_add]
  refine Finset.sum_congr rfl fun s _ => ?_
  -- the index of the summand: coordinate `s` inserted at axis 2 of `(b, h, 0)` is `(b, h, s, 0)`
  have ei : ∀ (hr : S8x8x16384x1.Reduces [2] S8x8x1), hr.lift (ix3 b h (0 : Fin 1)) s = ix4 b h s (0 : Fin 1) := fun hr =>
    funext fun a => Fin.ext (by match a with | ⟨0, _⟩ => rfl | ⟨1, _⟩ => rfl | ⟨2, _⟩ => rfl | ⟨3, _⟩ => rfl)
  rw [ei]
  rfl

/-- Under the precondition every entry of `q`, `k` and `v` is a real number and both squared norms of every head
    are positive. -/
theorem of_pre [Cert.Pre_finite_inputs.Facts] (q k : FVec Ideal Cert.Pre_finite_inputs.S8x8x16384x1 .f32) (v : FVec Ideal Cert.Pre_finite_inputs.S8x8x16384x64 .f32)
    (h : Cert.Pre_finite_inputs.fn (F := Ideal) q k v = fun _ => 1#1) :
    (∀ i, ∃ r : ℝ, q i = (r : EReal)) ∧ (∀ i, ∃ r : ℝ, k i = (r : EReal)) ∧ (∀ i, ∃ r : ℝ, v i = (r : EReal))
      ∧ (∀ b h : Fin 8, 0 < normSq q b h) ∧ (∀ b h : Fin 8, 0 < normSq k b h) := by
  have e := congrFun h ValueIdx.ix0
  dsimp only [fn, fn_part1] at e
  -- a conjunction of one-bit words is 1 exactly when each word is
  simp only [andi, IntOp.andi_eq_one] at e
  obtain ⟨⟨⟨⟨hq, hk⟩, hv⟩, hnq⟩, hnk⟩ := e
  refine ⟨fun i => ?_, fun i => ?_, fun i => ?_, fun b h' => ?_, fun b h' => ?_⟩
  · exact real_of_abs_lt (q i) (Host.reduce_andi_all _ _ _ _ _ hq i)
  · exact real_of_abs_lt (k i) (Host.reduce_andi_all _ _ _ _ _ hk i)
  · exact real_of_abs_lt (v i) (Host.reduce_andi_all _ _ _ _ _ hv i)
  · have c := Host.reduce_andi_all _ _ _ _ _ hnq (ix3 b h' (0 : Fin 1))
    dsimp only [cmpf, broadcastInDim, constant] at c
    rw [← sumSq_eq q b h']
    exact pos_of_cmp _ c
  · have c := Host.reduce_andi_all _ _ _ _ _ hnk (ix3 b h' (0 : Fin 1))
    dsimp only [cmpf, broadcastInDim, constant] at c
    rw [← sumSq_eq k b h']
    exact pos_of_cmp _ c

end Cert.NormAttn

end
-- ==== Proof.RefSide.lean ====
/-
  The reference, read one operation at a time, is `refAt`. The reference takes `‖k‖ = √(0 + ∑ₛ k s · k s)` and
  `‖q‖` likewise per head, spreads each over the sequence axis, divides `k` and `q` by them entry by entry, contracts
  `k / ‖k‖` with `v` over the sequence axis into one row per head, divides that row by the constant `1`, and multiplies
  by `q / ‖q‖` through a contraction over an axis of length one. No hypothesis is needed: each step is an equation
  between extended reals at an index.
-/
import proofs.«148077_j37031208026419_2_alg».proof.Proof.Spec
import proofs.«148077_j37031208026419_2_alg».proof.Proof.Gen.ReferenceIdeal.Read

noncomputable section

open scoped BigOperators

namespace Cert.NormAttn

open Idealize.ShloMosaic Idealize.ShloMosaic.ValueIdx
open Cert.ReferenceIdeal Cert.ReferenceIdeal.Read

/-- The norm of the keys at head `(b, h)`: the square root of the sum, from the zero word, of the squares down the
    sequence axis. -/
theorem sqrt_normSq_k (x : FVec Ideal S8x8x16384x1 .f32) (b h : Fin 8) :
    val_main_v2 (F := Ideal) x (ix3 b h (0 : Fin 1)) = Ideal.sqrt (normSq x b h) := by
  rw [val_main_v2_apply, val_main_v1_apply, val_main_cst_apply]
  simp only [val_main_v0_apply, Ideal.hostUnary_sqrt_def, Ideal.mulf_def, Ideal.ofBits_def, Ideal.ofBits_zero_f32, zero_add]
  unfold normSq
  refine congrArg Ideal.sqrt (Finset.sum_congr rfl fun s _ => ?_)
  have ei : idx_main_v1 (ix3 b h (0 : Fin 1)) s = ix4 b h s (0 : Fin 1) :=
    funext fun a => Fin.ext (by match a with | ⟨0, _⟩ => rfl | ⟨1, _⟩ => rfl | ⟨2, _⟩ => rfl | ⟨3, _⟩ => rfl)
  rw [ei]

/-- The norm of the queries at head `(b, h)`, the same reading. -/
theorem sqrt_normSq_q (x : FVec Ideal S8x8x16384x1 .f32) (b h : Fin 8) :
    val_main_v6 (F := Ideal) x (ix3 b h (0 : Fin 1)) = Ideal.sqrt (normSq x b h) := by
  rw [val_main_v6_apply, val_main_v5_apply, val_main_cst_0_apply]
  simp only [val_main_v4_apply, Ideal.hostUnary_sqrt_def, Ideal.mulf_def, Ideal.ofBits_def, Ideal.ofBits_zero_f32, zero_add]
  unfold normSq
  refine congrArg Ideal.sqrt (Finset.sum_congr rfl fun s _ => ?_)
  have ei : idx_main_v5 (ix3 b h (0 : Fin 1)) s = ix4 b h s (0 : Fin 1) :=
    funext fun a => Fin.ext (by match a with | ⟨0, _⟩ => rfl | ⟨1, _⟩ => rfl | ⟨2, _⟩ => rfl | ⟨3, _⟩ => rfl)
  rw [ei]

/-- A key divided by its head's norm: the norm is spread unchanged over the sequence axis, so at `(b, h, t, 0)` the
    divisor is the norm of head `(b, h)`. -/
theorem k_div (x : FVec Ideal S8x8x16384x1 .f32) (b h : Fin 8) (t : Fin 16384) :
    val_main_v9 (F := Ideal) x (ix4 b h t (0 : Fin 1)) = Ideal.div (x (ix4 b h t (0 : Fin 1))) (Ideal.sqrt (normSq x b h)) := by
  rw [val_main_v9_apply, val_main_v8_apply, val_main_v3_apply, Ideal.hostDivf_def]
  have ei : idx_main_v3 (idx_main_v8 (ix4 b h t (0 : Fin 1))) = ix3 b h (0 : Fin 1) :=
    funext fun a => Fin.ext (by match a with | ⟨0, _⟩ => rfl | ⟨1, _⟩ => rfl | ⟨2, _⟩ => rfl)
  rw [ei, sqrt_normSq_k]

/-- A query divided by its head's norm, the same reading. -/
theorem q_div (x : FVec Ideal S8x8x16384x1 .f32) (b h : Fin 8) (s : Fin 16384) :
    val_main_v11 (F := Ideal) x (ix4 b h s (0 : Fin 1)) = Ideal.div (x (ix4 b h s (0 : Fin 1))) (Ideal.sqrt (normSq x b h)) := by
  rw [val_main_v11_apply, val_main_v10_apply, val_main_v7_apply, Ideal.hostDivf_def]
  have ei : idx_main_v7 (idx_main_v10 (ix4 b h s (0 : Fin 1))) = ix3 b h (0 : Fin 1) :=
    funext fun a => Fin.ext (by match a with | ⟨0, _⟩ => rfl | ⟨1, _⟩ => rfl | ⟨2, _⟩ => rfl)
  rw [ei, sqrt_normSq_q]

/-- The key-value row of head `(b, h)` at column `e`: the sum over the sequence axis of `(k t / ‖k‖) · v t e`, divided
    by the constant `1`. -/
theorem kv_row (k : FVec Ideal S8x8x16384x1 .f32) (v : FVec Ideal S8x8x16384x64 .f32) (b h : Fin 8) (e : Fin 64) :
    val_main_v14 (F := Ideal) k v (ix4 b h (0 : Fin 1) e)
      = Ideal.div (∑ t : Fin 16384, Ideal.div (k (ix4 b h t (0 : Fin 1))) (Ideal.sqrt (normSq k b h)) * v (ix4 b h t e)) one := by
  rw [val_main_v14_apply, val_main_v12_apply, val_main_v13_apply, val_main_cst_1_apply, Ideal.hostDivf_def, Ideal.ofBits_def]
  refine congrArg (Ideal.div · one) (Finset.sum_congr rfl fun t _ => ?_)
  have el : lidx_main_v12 (ix4 b h (0 : Fin 1) e) t = ix4 b h t (0 : Fin 1) :=
    funext fun a => Fin.ext (by match a with | ⟨0, _⟩ => rfl | ⟨1, _⟩ => rfl | ⟨2, _⟩ => rfl | ⟨3, _⟩ => rfl)
  have er : ridx_main_v12 (ix4 b h (0 : Fin 1) e) t = ix4 b h t e :=
    funext fun a => Fin.ext (by match a with | ⟨0, _⟩ => rfl | ⟨1, _⟩ => rfl | ⟨2, _⟩ => rfl | ⟨3, _⟩ => rfl)
  rw [el, er, k_div]

/-- The reference at `(b, h, s, e)`: a sum over an axis of length one, whose one term is `(q s / ‖q‖)` times the
    key-value row's entry. -/
theorem ref_at (q k : FVec Ideal S8x8x16384x1 .f32) (v : FVec Ideal S8x8x16384x64 .f32) (b h : Fin 8) (s : Fin 16384) (e : Fin 64) :
    val_main_v15 (F := Ideal) q k v (ix4 b h s e) = refAt q k v b h s e := by
  rw [val_main_v15_apply, Fin.sum_univ_one]
  have el : lidx_main_v15 (ix4 b h s e) (0 : Fin 1) = ix4 b h s (0 : Fin 1) :=
    funext fun a => Fin.ext (by match a with | ⟨0, _⟩ => rfl | ⟨1, _⟩ => rfl | ⟨2, _⟩ => rfl | ⟨3, _⟩ => rfl)
  have er : ridx_main_v15 (ix4 b h s e) (0 : Fin 1) = ix4 b h (0 : Fin 1) e :=
    funext fun a => Fin.ext (by match a with | ⟨0, _⟩ => rfl | ⟨1, _⟩ => rfl | ⟨2, _⟩ => rfl | ⟨3, _⟩ => rfl)
  rw [el, er, q_div, kv_row]
  rfl

/-- The reference at any index is `refAt` at the index's four coordinates. -/
theorem ref_eq (q k : FVec Ideal Cert.ReferenceIdeal.S8x8x16384x1 .f32) (v : FVec Ideal Cert.ReferenceIdeal.S8x8x16384x64 .f32) (i : Cert.ReferenceIdeal.S8x8x16384x64.Idx) :
    Cert.ReferenceIdeal.Read.val_main_v15 (F := Ideal) q k v i = refAt q k v (i 0) (i 1) (i 2) (i 3) :=
  (congrArg (val_main_v15 (F := Ideal) q k v) (ValueIdx.eq_ix4 i)).trans (ref_at q k v (i 0) (i 1) (i 2) (i 3))

end Cert.NormAttn

end
-- ==== Proof.KernelRun.lean ====
/-
  The program's run with its result named. The program is four stretches — host operations, the first launch, the
  second launch, one closing host operation — and the contents of every buffer at each boundary are a fold from the
  launch memory (`W0 … W4`). Every weakly fair execution terminates without fault in a state whose unscoped buffers
  hold the last boundary's contents `W4`; read at the result's buffer this names the result, and read at the three
  argument buffers it gives them back unchanged.
-/
import proofs.«148077_j37031208026419_2_alg».proof.Proof.Gen.KernelIdeal.Frame

set_option maxRecDepth 16384

noncomputable section

namespace Cert.NormAttn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, faultless, with the result buffer at the last boundary's
    contents and the three arguments as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.NormAttn.KRun

end
-- ==== Proof.Regions.lean ====
/-
  Both launches walk the 64 heads one per grid point, and at point `t` every operand's block is row `t` of its
  array (block index `(t, 0, 0)`). So what a launch leaves in an output array is ONE function of the arrays it
  found, row by row: row `t` of the output is the body's arithmetic applied to rows `t` of the inputs. This module
  states those four functions (the two squared norms and the key-value row of the first launch, the scaled outer
  product of the second) and proves, for any contents `V` a launch is entered with, that each output array ends
  holding its function of `V`'s arrays: what point `t` writes back is block `t` of the function, and the 64 blocks
  cover the array.
-/
import proofs.«148077_j37031208026419_2_alg».proof.Proof.Gen.KernelIdeal.Frame
import Idealize.ShloMosaic.Lib.Pipeline.Value
import Idealize.ShloMosaic.Lib.ValueIdx

set_option maxRecDepth 16384

noncomputable section

namespace Cert.NormAttn.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable {F : FTy → Type} [FloatOps F]

theorem zeros3 : (![0, 0, 0] : Fin 3 → Nat) = fun _ => 0 := funext fun a => by fin_cases a <;> rfl

/-- Row `t` of a [64, n₁, n₂] array, as a [1, n₁, n₂] block. -/
def rowOf {α : Type} {n1 n2 : Nat} (A : (⟨3, ![64, n1, n2]⟩ : Shape).Idx → α) (t : Fin 64) :
    (⟨3, ![1, n1, n2]⟩ : Shape).Idx → α :=
  fun y => A (ix3 t (⟨(y 1).val, (y 1).isLt⟩ : Fin n1) (⟨(y 2).val, (y 2).isLt⟩ : Fin n2))

/-- An index of a [64, n₁, n₂] array inside its row: first coordinate zero. -/
abbrev inRow {n1 n2 : Nat} (i : (⟨3, ![64, n1, n2]⟩ : Shape).Idx) : (⟨3, ![1, n1, n2]⟩ : Shape).Idx :=
  ix3 (0 : Fin 1) (⟨(i 1).val, (i 1).isLt⟩ : Fin n1) (⟨(i 2).val, (i 2).isLt⟩ : Fin n2)

/-- The head an index of a [64, n₁, n₂] array belongs to. -/
abbrev headOf {n1 n2 : Nat} (i : (⟨3, ![64, n1, n2]⟩ : Shape).Idx) : Fin 64 := ⟨(i 0).val, (i 0).isLt⟩

/-- Squared norms of the rows of the queries' array (the first launch's first output): entry `(t, 0, 0)` is the
    body's sum of squares of row `t`. -/
def sqNormQ (A : S64x1x16384.Idx → F .f32) : S64x1x1.Idx → F .f32 :=
  fun i => k0_pay2 (rowOf A (headOf i)) (inRow i)

/-- Squared norms of the rows of the keys' array (the first launch's second output). -/
def sqNormK (A : S64x1x16384.Idx → F .f32) : S64x1x1.Idx → F .f32 :=
  fun i => k0_pay3 (rowOf A (headOf i)) (inRow i)

/-- The key-value rows (the first launch's third output): row `t` is the body's product of the keys' row `t` with
    the values' slab `t`, times one. -/
def kvRow (A : S64x1x16384.Idx → F .f32) (B : S64x16384x64.Idx → F .f32) : S64x1x64.Idx → F .f32 :=
  fun i => k0_pay4 (rowOf A (headOf i)) (rowOf B (headOf i)) (inRow i)

/-- The second launch's output: slab `t` is the body's outer product of the queries' row `t` with the key-value
    row `t` scaled by the reciprocal square root of the product of the two squared norms of head `t`. -/
def outer (A : S64x1x16384.Idx → F .f32) (N1 N2 : S64x1x1.Idx → F .f32) (KV : S64x1x64.Idx → F .f32) :
    S64x16384x64.Idx → F .f32 :=
  fun i => k1_pay1 (rowOf A (headOf i)) (rowOf N1 (headOf i)) (rowOf N2 (headOf i)) (rowOf KV (headOf i)) (inRow i)

/-! ## The first launch -/

section Region0
variable (V : (c : Dev nD) → (b : Ref sig .tc) → Buf (Elt F) ((c : Thread nD τ).loc b))

/-- Every window of the first launch sits at block `(t, 0, 0)` at point `t` (decided over the 64 points). -/
theorem idx0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- What point `t` writes back to the first output is block `t` of the queries' squared norms. -/
theorem flushed0_3_eq (c : Dev nD) (t : Fin cfg0.N) :
    (dat0 V c).flushed 3 t = ((cfg0.win 3).blk t).view.read (Elt F) (sqNormQ (V c main_v1)) := by
  show (cfg0.win 3).cut (grid0.coords t) ((dat0 V c).after 3 t) = _
  rw [after0_3]
  unfold out0_3
  rw [View.canon_unit_zero zeros3]
  simp only [View.ld_unit_zero (S := S1x1x16384) zeros3]
  funext y
  have hidx := idx0 t
  show k0_pay2 (iblk0 V c 0 t) y = sqNormQ (V c main_v1) (((cfg0.win 3).blk t).view.emb y)
  unfold sqNormQ headOf inRow
  have hX : iblk0 V c 0 t = rowOf (V c main_v1) (⟨((((cfg0.win 3).blk t).view.emb y) 0).val, ((((cfg0.win 3).blk t).view.emb y) 0).isLt⟩ : Fin 64) := by
    funext y'
    show V c main_v1 (((cfg0.win 0).blk t).view.emb y') = _
    unfold rowOf
    refine congrArg (V c main_v1) (funext fun a => Fin.ext ?_)
    match a with
    | ⟨0, _⟩ => show win0_0.index t (0 : Fin 3) * 1 + 1 * (y' 0).val = win0_3.index t (0 : Fin 3) * 1 + 1 * (y 0).val; have h1 : (y' 0).val < 1 := (y' 0).isLt; have h2 : (y 0).val < 1 := (y 0).isLt; omega
    | ⟨1, _⟩ => show win0_0.index t (1 : Fin 3) * 1 + 1 * (y' 1).val = (y' 1).val; omega
    | ⟨2, _⟩ => show win0_0.index t (2 : Fin 3) * 16384 + 1 * (y' 2).val = (y' 2).val; omega
  have hy : y = ix3 (0 : Fin 1) (⟨((((cfg0.win 3).blk t).view.emb y) 1).val, ((((cfg0.win 3).blk t).view.emb y) 1).isLt⟩ : Fin 1) (⟨((((cfg0.win 3).blk t).view.emb y) 2).val, ((((cfg0.win 3).blk t).view.emb y) 2).isLt⟩ : Fin 1) := by
    funext a; apply Fin.ext
    match a with
    | ⟨0, _⟩ => show (y 0).val = 0; have h2 : (y 0).val < 1 := (y 0).isLt; omega
    | ⟨1, _⟩ => show (y 1).val = win0_3.index t (1 : Fin 3) * 1 + 1 * (y 1).val; omega
    | ⟨2, _⟩ => show (y 2).val = win0_3.index t (2 : Fin 3) * 1 + 1 * (y 2).val; omega
  exact congr (congrArg k0_pay2 hX) hy

/-- What point `t` writes back to the second output is block `t` of the keys' squared norms. -/
theorem flushed0_4_eq (c : Dev nD) (t : Fin cfg0.N) :
    (dat0 V c).flushed 4 t = ((cfg0.win 4).blk t).view.read (Elt F) (sqNormK (V c main_v3)) := by
  show (cfg0.win 4).cut (grid0.coords t) ((dat0 V c).after 4 t) = _
  rw [after0_4]
  unfold out0_4
  rw [View.canon_unit_zero zeros3]
  simp only [View.ld_unit_zero (S := S1x1x16384) zeros3]
  funext y
  have hidx := idx0 t
  show k0_pay3 (iblk0 V c 1 t) y = sqNormK (V c main_v3) (((cfg0.win 4).blk t).view.emb y)
  unfold sqNormK headOf inRow
  have hX : iblk0 V c 1 t = rowOf (V c main_v3) (⟨((((cfg0.win 4).blk t).view.emb y) 0).val, ((((cfg0.win 4).blk t).view.emb y) 0).isLt⟩ : Fin 64) := by
    funext y'
    show V c main_v3 (((cfg0.win 1).blk t).view.emb y') = _
    unfold rowOf
    refine congrArg (V c main_v3) (funext fun a => Fin.ext ?_)
    match a with
    | ⟨0, _⟩ => show win0_1.index t (0 : Fin 3) * 1 + 1 * (y' 0).val = win0_4.index t (0 : Fin 3) * 1 + 1 * (y 0).val; have h1 : (y' 0).val < 1 := (y' 0).isLt; have h2 : (y 0).val < 1 := (y 0).isLt; omega
    | ⟨1, _⟩ => show win0_1.index t (1 : Fin 3) * 1 + 1 * (y' 1).val = (y' 1).val; omega
    | ⟨2, _⟩ => show win0_1.index t (2 : Fin 3) * 16384 + 1 * (y' 2).val = (y' 2).val; omega
  have hy : y = ix3 (0 : Fin 1) (⟨((((cfg0.win 4).blk t).view.emb y) 1).val, ((((cfg0.win 4).blk t).view.emb y) 1).isLt⟩ : Fin 1) (⟨((((cfg0.win 4).blk t).view.emb y) 2).val, ((((cfg0.win 4).blk t).view.emb y) 2).isLt⟩ : Fin 1) := by
    funext a; apply Fin.ext
    match a with
    | ⟨0, _⟩ => show (y 0).val = 0; have h2 : (y 0).val < 1 := (y 0).isLt; omega
    | ⟨1, _⟩ => show (y 1).val = win0_4.index t (1 : Fin 3) * 1 + 1 * (y 1).val; omega
    | ⟨2, _⟩ => show (y 2).val = win0_4.index t (2 : Fin 3) * 1 + 1 * (y 2).val; omega
  exact congr (congrArg k0_pay3 hX) hy

/-- What point `t` writes back to the third output is block `t` of the key-value rows. -/
theorem flushed0_5_eq (c : Dev nD) (t : Fin cfg0.N) :
    (dat0 V c).flushed 5 t = ((cfg0.win 5).blk t).view.read (Elt F) (kvRow (V c main_v3) (V c main_v4)) := by
  show (cfg0.win 5).cut (grid0.coords t) ((dat0 V c).after 5 t) = _
  rw [after0_5]
  unfold out0_5
  rw [View.canon_unit_zero zeros3]
  simp only [View.ld_unit_zero (S := S1x1x16384) zeros3, View.ld_unit_zero (S := S1x16384x64) zeros3]
  funext y
  have hidx := idx0 t
  show k0_pay4 (iblk0 V c 1 t) (iblk0 V c 2 t) y = kvRow (V c main_v3) (V c main_v4) (((cfg0.win 5).blk t).view.emb y)
  unfold kvRow headOf inRow
  have hX : iblk0 V c 1 t = rowOf (V c main_v3) (⟨((((cfg0.win 5).blk t).view.emb y) 0).val, ((((cfg0.win 5).blk t).view.emb y) 0).isLt⟩ : Fin 64) := by
    funext y'
    show V c main_v3 (((cfg0.win 1).blk t).view.emb y') = _
    unfold rowOf
    refine congrArg (V c main_v3) (funext fun a => Fin.ext ?_)
    match a with
    | ⟨0, _⟩ => show win0_1.index t (0 : Fin 3) * 1 + 1 * (y' 0).val = win0_5.index t (0 : Fin 3) * 1 + 1 * (y 0).val; have h1 : (y' 0).val < 1 := (y' 0).isLt; have h2 : (y 0).val < 1 := (y 0).isLt; omega
    | ⟨1, _⟩ => show win0_1.index t (1 : Fin 3) * 1 + 1 * (y' 1).val = (y' 1).val; omega
    | ⟨2, _⟩ => show win0_1.index t (2 : Fin 3) * 16384 + 1 * (y' 2).val = (y' 2).val; omega
  have hB : iblk0 V c 2 t = rowOf (V c main_v4) (⟨((((cfg0.win 5).blk t).view.emb y) 0).val, ((((cfg0.win 5).blk t).view.emb y) 0).isLt⟩ : Fin 64) := by
    funext y'
    show V c main_v4 (((cfg0.win 2).blk t).view.emb y') = _
    unfold rowOf
    refine congrArg (V c main_v4) (funext fun a => Fin.ext ?_)
    match a with
    | ⟨0, _⟩ => show win0_2.index t (0 : Fin 3) * 1 + 1 * (y' 0).val = win0_5.index t (0 : Fin 3) * 1 + 1 * (y 0).val; have h1 : (y' 0).val < 1 := (y' 0).isLt; have h2 : (y 0).val < 1 := (y 0).isLt; omega
    | ⟨1, _⟩ => show win0_2.index t (1 : Fin 3) * 16384 + 1 * (y' 1).val = (y' 1).val; omega
    | ⟨2, _⟩ => show win0_2.index t (2 : Fin 3) * 64 + 1 * (y' 2).val = (y' 2).val; omega
  have hy : y = ix3 (0 : Fin 1) (⟨((((cfg0.win 5).blk t).view.emb y) 1).val, ((((cfg0.win 5).blk t).view.emb y) 1).isLt⟩ : Fin 1) (⟨((((cfg0.win 5).blk t).view.emb y) 2).val, ((((cfg0.win 5).blk t).view.emb y) 2).isLt⟩ : Fin 64) := by
    funext a; apply Fin.ext
    match a with
    | ⟨0, _⟩ => show (y 0).val = 0; have h2 : (y 0).val < 1 := (y 0).isLt; omega
    | ⟨1, _⟩ => show (y 1).val = win0_5.index t (1 : Fin 3) * 1 + 1 * (y 1).val; omega
    | ⟨2, _⟩ => show (y 2).val = win0_5.index t (2 : Fin 3) * 64 + 1 * (y 2).val; omega
  exact congr (congr (congrArg k0_pay4 hX) hB) hy

/-- An index of output 3's array lies in point `t`'s block iff each coordinate lies in the block's range on its axis. -/
theorem mem_blk0_3 (t : Fin cfg0.N) (i : S64x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v5_0).slice (win0_3.rect t)).set ↔ _
  rw [View.set_slice_whole, Rect.mem_set_unit]
  exact Iff.rfl

/-- Every index of output 3's array is in the block of the point numbered by its first coordinate. -/
theorem covered0_3 (i : S64x1x1.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 1 := (i 2).isLt
  obtain ⟨t, ht⟩ : ∃ t : Fin cfg0.N, t.val = (i 0).val := ⟨⟨(i 0).val, by rw [show cfg0.N = 64 from N_0]; exact hi0⟩, rfl⟩
  have hidx := idx0 t
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- An index of output 4's array lies in point `t`'s block iff each coordinate lies in the block's range on its axis. -/
theorem mem_blk0_4 (t : Fin cfg0.N) (i : S64x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v5_1).slice (win0_4.rect t)).set ↔ _
  rw [View.set_slice_whole, Rect.mem_set_unit]
  exact Iff.rfl

/-- Every index of output 4's array is in the block of the point numbered by its first coordinate. -/
theorem covered0_4 (i : S64x1x1.Idx) :
    ∃ t : Fin cfg0.N, (cfg0.win 4).flush t = true ∧ i ∈ ((cfg0.win 4).blk t).view.set := by
  have hi0 : (i 0).val < 64 := (i 0).isLt
  have hi1 : (i 1).val < 1 := (i 1).isLt
  have hi2 : (i 2).val < 1 := (i 2).isLt
  obtain ⟨t, ht⟩ : ∃ t : Fin cfg0.N, t.val = (i 0).val := ⟨⟨(i 0).val, by rw [show cfg0.N = 64 from N_0]; exact hi0⟩, rfl⟩
  have hidx := idx0 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-- An index of output 5's array lies in point `t`'s block iff each coordinate lies in the block's range on its axis. -/
theorem mem_blk0_5 (t : Fin cfg0.N) (i : S64x1x64.Idx) :
    i ∈ ((cfg0.win 5).blk t).view.set ↔ ∀ a : Fin 3, win0_5.index t a * S1x1x64.size a ≤ (i a).val ∧ (i a).val < win0_5.index t a * S1x1x64.size a + S1x1x64.size a := by
  show i ∈ ((View.whole main_v5_2).slice (win0_5.rect t)).set ↔ _
  rw [View.set_slice_whole, Rect.mem_set_unit]
  exact Iff.rfl

/-- Every index of output 5's array is in the block of the point numbered by its first coordinate. -/
theorem covered0_5 (i : S64x1x64.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 64 := (i 2).isLt
  obtain ⟨t, ht⟩ : ∃ t : Fin cfg0.N, t.val = (i 0).val := ⟨⟨(i 0).val, by rw [show cfg0.N = 64 from N_0]; exact hi0⟩, rfl⟩
  have hidx := idx0 t
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 64 ≤ (i 2).val ∧ (i 2).val < win0_5.index t (2 : Fin 3) * 64 + 64; omega

/-- After the first launch its first output holds the queries' squared norms. -/
theorem final0_3 (c : Dev nD) : (dat0 V c).arrAt 3 cfg0.N = sqNormQ (V c main_v1) :=
  (dat0 V c).arrAt_eq_of_cover 3 (sqNormQ (V c main_v1)) (fun t _ => flushed0_3_eq V c t) covered0_3

/-- After the first launch its second output holds the keys' squared norms. -/
theorem final0_4 (c : Dev nD) : (dat0 V c).arrAt 4 cfg0.N = sqNormK (V c main_v3) :=
  (dat0 V c).arrAt_eq_of_cover 4 (sqNormK (V c main_v3)) (fun t _ => flushed0_4_eq V c t) covered0_4

/-- After the first launch its third output holds the key-value rows. -/
theorem final0_5 (c : Dev nD) : (dat0 V c).arrAt 5 cfg0.N = kvRow (V c main_v3) (V c main_v4) :=
  (dat0 V c).arrAt_eq_of_cover 5 (kvRow (V c main_v3) (V c main_v4)) (fun t _ => flushed0_5_eq V c t) covered0_5

end Region0

/-! ## The second launch -/

section Region1
variable (V : (c : Dev nD) → (b : Ref sig .tc) → Buf (Elt F) ((c : Thread nD τ).loc b))

/-- Every window of the second launch sits at block `(t, 0, 0)` at point `t` (decided over the 64 points). -/
theorem idx1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- What point `t` writes back is block `t` of the scaled outer products. -/
theorem flushed1_4_eq (c : Dev nD) (t : Fin cfg1.N) :
    (dat1 V c).flushed 4 t = ((cfg1.win 4).blk t).view.read (Elt F)
      (outer (V c main_v1) (V c main_v5_0) (V c main_v5_1) (V c main_v5_2)) := by
  show (cfg1.win 4).cut (grid1.coords t) ((dat1 V c).after 4 t) = _
  rw [after1_4]
  unfold out1_4
  rw [View.canon_unit_zero zeros3]
  simp only [View.ld_unit_zero (S := S1x1x16384) zeros3, View.ld_unit_zero (S := S1x1x1) zeros3, View.ld_unit_zero (S := S1x1x64) zeros3]
  funext y
  have hidx := idx1 t
  show k1_pay1 (iblk1 V c 0 t) (iblk1 V c 1 t) (iblk1 V c 2 t) (iblk1 V c 3 t) y
    = outer (V c main_v1) (V c main_v5_0) (V c main_v5_1) (V c main_v5_2) (((cfg1.win 4).blk t).view.emb y)
  unfold outer headOf inRow
  have hA : iblk1 V c 0 t = rowOf (V c main_v1) (⟨((((cfg1.win 4).blk t).view.emb y) 0).val, ((((cfg1.win 4).blk t).view.emb y) 0).isLt⟩ : Fin 64) := by
    funext y'
    show V c main_v1 (((cfg1.win 0).blk t).view.emb y') = _
    unfold rowOf
    refine congrArg (V c main_v1) (funext fun a => Fin.ext ?_)
    match a with
    | ⟨0, _⟩ => show win1_0.index t (0 : Fin 3) * 1 + 1 * (y' 0).val = win1_4.index t (0 : Fin 3) * 1 + 1 * (y 0).val; have h1 : (y' 0).val < 1 := (y' 0).isLt; have h2 : (y 0).val < 1 := (y 0).isLt; omega
    | ⟨1, _⟩ => show win1_0.index t (1 : Fin 3) * 1 + 1 * (y' 1).val = (y' 1).val; omega
    | ⟨2, _⟩ => show win1_0.index t (2 : Fin 3) * 16384 + 1 * (y' 2).val = (y' 2).val; omega
  have hN1 : iblk1 V c 1 t = rowOf (V c main_v5_0) (⟨((((cfg1.win 4).blk t).view.emb y) 0).val, ((((cfg1.win 4).blk t).view.emb y) 0).isLt⟩ : Fin 64) := by
    funext y'
    show V c main_v5_0 (((cfg1.win 1).blk t).view.emb y') = _
    unfold rowOf
    refine congrArg (V c main_v5_0) (funext fun a => Fin.ext ?_)
    match a with
    | ⟨0, _⟩ => show win1_1.index t (0 : Fin 3) * 1 + 1 * (y' 0).val = win1_4.index t (0 : Fin 3) * 1 + 1 * (y 0).val; have h1 : (y' 0).val < 1 := (y' 0).isLt; have h2 : (y 0).val < 1 := (y 0).isLt; omega
    | ⟨1, _⟩ => show win1_1.index t (1 : Fin 3) * 1 + 1 * (y' 1).val = (y' 1).val; omega
    | ⟨2, _⟩ => show win1_1.index t (2 : Fin 3) * 1 + 1 * (y' 2).val = (y' 2).val; omega
  have hN2 : iblk1 V c 2 t = rowOf (V c main_v5_1) (⟨((((cfg1.win 4).blk t).view.emb y) 0).val, ((((cfg1.win 4).blk t).view.emb y) 0).isLt⟩ : Fin 64) := by
    funext y'
    show V c main_v5_1 (((cfg1.win 2).blk t).view.emb y') = _
    unfold rowOf
    refine congrArg (V c main_v5_1) (funext fun a => Fin.ext ?_)
    match a with
    | ⟨0, _⟩ => show win1_2.index t (0 : Fin 3) * 1 + 1 * (y' 0).val = win1_4.index t (0 : Fin 3) * 1 + 1 * (y 0).val; have h1 : (y' 0).val < 1 := (y' 0).isLt; have h2 : (y 0).val < 1 := (y 0).isLt; omega
    | ⟨1, _⟩ => show win1_2.index t (1 : Fin 3) * 1 + 1 * (y' 1).val = (y' 1).val; omega
    | ⟨2, _⟩ => show win1_2.index t (2 : Fin 3) * 1 + 1 * (y' 2).val = (y' 2).val; omega
  have hKV : iblk1 V c 3 t = rowOf (V c main_v5_2) (⟨((((cfg1.win 4).blk t).view.emb y) 0).val, ((((cfg1.win 4).blk t).view.emb y) 0).isLt⟩ : Fin 64) := by
    funext y'
    show V c main_v5_2 (((cfg1.win 3).blk t).view.emb y') = _
    unfold rowOf
    refine congrArg (V c main_v5_2) (funext fun a => Fin.ext ?_)
    match a with
    | ⟨0, _⟩ => show win1_3.index t (0 : Fin 3) * 1 + 1 * (y' 0).val = win1_4.index t (0 : Fin 3) * 1 + 1 * (y 0).val; have h1 : (y' 0).val < 1 := (y' 0).isLt; have h2 : (y 0).val < 1 := (y 0).isLt; omega
    | ⟨1, _⟩ => show win1_3.index t (1 : Fin 3) * 1 + 1 * (y' 1).val = (y' 1).val; omega
    | ⟨2, _⟩ => show win1_3.index t (2 : Fin 3) * 64 + 1 * (y' 2).val = (y' 2).val; omega
  have hy : y = ix3 (0 : Fin 1) (⟨((((cfg1.win 4).blk t).view.emb y) 1).val, ((((cfg1.win 4).blk t).view.emb y) 1).isLt⟩ : Fin 16384) (⟨((((cfg1.win 4).blk t).view.emb y) 2).val, ((((cfg1.win 4).blk t).view.emb y) 2).isLt⟩ : Fin 64) := by
    funext a; apply Fin.ext
    match a with
    | ⟨0, _⟩ => show (y 0).val = 0; have h2 : (y 0).val < 1 := (y 0).isLt; omega
    | ⟨1, _⟩ => show (y 1).val = win1_4.index t (1 : Fin 3) * 16384 + 1 * (y 1).val; omega
    | ⟨2, _⟩ => show (y 2).val = win1_4.index t (2 : Fin 3) * 64 + 1 * (y 2).val; omega
  exact congr (congr (congr (congr (congrArg k1_pay1 hA) hN1) hN2) hKV) hy

/-- An index of output 4's array lies in point `t`'s block iff each coordinate lies in the block's range on its axis. -/
theorem mem_blk1_4 (t : Fin cfg1.N) (i : S64x16384x64.Idx) :
    i ∈ ((cfg1.win 4).blk t).view.set ↔ ∀ a : Fin 3, win1_4.index t a * S1x16384x64.size a ≤ (i a).val ∧ (i a).val < win1_4.index t a * S1x16384x64.size a + S1x16384x64.size a := by
  show i ∈ ((View.whole main_v6).slice (win1_4.rect t)).set ↔ _
  rw [View.set_slice_whole, Rect.mem_set_unit]
  exact Iff.rfl

/-- Every index of output 4's array is in the block of the point numbered by its first coordinate. -/
theorem covered1_4 (i : S64x16384x64.Idx) :
    ∃ t : Fin cfg1.N, (cfg1.win 4).flush t = true ∧ i ∈ ((cfg1.win 4).blk t).view.set := by
  have hi0 : (i 0).val < 64 := (i 0).isLt
  have hi1 : (i 1).val < 16384 := (i 1).isLt
  have hi2 : (i 2).val < 64 := (i 2).isLt
  obtain ⟨t, ht⟩ : ∃ t : Fin cfg1.N, t.val = (i 0).val := ⟨⟨(i 0).val, by rw [show cfg1.N = 64 from N_1]; exact hi0⟩, rfl⟩
  have hidx := idx1 t
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 16384 ≤ (i 1).val ∧ (i 1).val < win1_4.index t (1 : Fin 3) * 16384 + 16384; omega
  | ⟨2, _⟩ => show win1_4.index t (2 : Fin 3) * 64 ≤ (i 2).val ∧ (i 2).val < win1_4.index t (2 : Fin 3) * 64 + 64; omega

/-- After the second launch its output holds the scaled outer products of the arrays it found. -/
theorem final1_4 (c : Dev nD) :
    (dat1 V c).arrAt 4 cfg1.N = outer (V c main_v1) (V c main_v5_0) (V c main_v5_1) (V c main_v5_2) :=
  (dat1 V c).arrAt_eq_of_cover 4 _ (fun t _ => flushed1_4_eq V c t) covered1_4

end Region1

end Cert.NormAttn.Blocks

end
-- ==== Proof.KernelTerm.lean ====
/-
  The program's result as ONE term of the three argument arrays. The host lays the queries and keys out as
  [64, 1, 16384] arrays (one row per head) and the values as [64, 16384, 64]; the first launch leaves the two squared
  norms and the key-value rows; the second launch the scaled outer products; a closing reshape gives the
  [8, 8, 16384, 64] result. Reading the boundary contents back stretch by stretch gives `kernelTerm`.
-/
import proofs.«148077_j37031208026419_2_alg».proof.Proof.Regions
import Idealize.ShloMosaic.Lib.StableHlo.Run

set_option maxRecDepth 16384

noncomputable section

namespace Cert.NormAttn.KTerm

open Idealize.ShloMosaic Idealize.ShloMosaic.TcCoe Idealize.ShloMosaic.Tactic Idealize.ShloMosaic.StableHlo
open Idealize.SL.Sem
open Cert.KernelIdeal Cert.KernelIdeal.Gen Cert.NormAttn.Blocks

variable {F : FTy → Type} [FloatOps F]

/-- The queries (or keys) laid out one row per head. -/
def rows (x : FVec F S8x8x16384x1 .f32) : FVec F S64x1x16384 .f32 :=
  broadcastInDim S64x1x16384 ![0, 2] bcast_S64x16384_S64x1x16384_0_2 (shapeCast S64x16384 x shapeCasts_S8x8x16384x1_S64x16384)

/-- The values laid out one slab per head. -/
def slabs (v : FVec F S8x8x16384x64 .f32) : FVec F S64x16384x64 .f32 :=
  shapeCast S64x16384x64 v shapeCasts_S8x8x16384x64_S64x16384x64

/-- The program's result, from its three arguments. -/
def kernelTerm (q k : FVec F S8x8x16384x1 .f32) (v : FVec F S8x8x16384x64 .f32) : FVec F S8x8x16384x64 .f32 :=
  shapeCast S8x8x16384x64
    (outer (rows q) (sqNormQ (rows q)) (sqNormK (rows k)) (kvRow (rows k) (slabs v)))
    shapeCasts_S64x16384x64_S8x8x16384x64

variable (m : (ℓ : Loc nD τ sig) → Buf (Elt F) ℓ) (ρ : Dev nD → PrngReg)

/-- Before the first launch the queries' rows are the first argument laid out. -/
theorem V1_q (c : Dev nD) : (V1 m ρ c main_v1 : S64x1x16384.Idx → F .f32) = rows (m ((c : Thread nD τ).loc main_arg0)) := by
  show StableHlo.after hostOps0 (W0 m ρ c) (Proc.devRef .tc main_v1) = _
  after_results
  rfl

/-- Before the first launch the keys' rows are the second argument laid out. -/
theorem V1_k (c : Dev nD) : (V1 m ρ c main_v3 : S64x1x16384.Idx → F .f32) = rows (m ((c : Thread nD τ).loc main_arg1)) := by
  show StableHlo.after hostOps0 (W0 m ρ c) (Proc.devRef .tc main_v3) = _
  after_results
  rfl

/-- Before the first launch the values' slabs are the third argument laid out. -/
theorem V1_v (c : Dev nD) : (V1 m ρ c main_v4 : S64x16384x64.Idx → F .f32) = slabs (m ((c : Thread nD τ).loc main_arg2)) := by
  show StableHlo.after hostOps0 (W0 m ρ c) (Proc.devRef .tc main_v4) = _
  after_results
  rfl

/-- The first launch only reads the queries' rows: an input window's array stays as it was entered. -/
theorem V2_q (c : Dev nD) : V2 m ρ c main_v1 = V1 m ρ c main_v1 :=
  (W2_arr m ρ c 0).trans (((dat0 (V1 m ρ) c).arrAt_in 0 rfl cfg0.N).trans (A_eq0 (V1 m ρ) c 0))

/-- Between the launches the first output holds the queries' squared norms. -/
theorem V2_n1 (c : Dev nD) : (V2 m ρ c main_v5_0 : S64x1x1.Idx → F .f32) = sqNormQ (rows (m ((c : Thread nD τ).loc main_arg0))) := by
  rw [← V1_q m ρ c]
  exact (W2_arr m ρ c 3).trans (final0_3 (V1 m ρ) c)

/-- Between the launches the second output holds the keys' squared norms. -/
theorem V2_n2 (c : Dev nD) : (V2 m ρ c main_v5_1 : S64x1x1.Idx → F .f32) = sqNormK (rows (m ((c : Thread nD τ).loc main_arg1))) := by
  rw [← V1_k m ρ c]
  exact (W2_arr m ρ c 4).trans (final0_4 (V1 m ρ) c)

/-- Between the launches the third output holds the key-value rows. -/
theorem V2_kv (c : Dev nD) : (V2 m ρ c main_v5_2 : S64x1x64.Idx → F .f32)
    = kvRow (rows (m ((c : Thread nD τ).loc main_arg1))) (slabs (m ((c : Thread nD τ).loc main_arg2))) := by
  rw [← V1_k m ρ c, ← V1_v m ρ c]
  exact (W2_arr m ρ c 5).trans (final0_5 (V1 m ρ) c)

/-- After the second launch its output holds the scaled outer products of the arguments. -/
theorem W3_out (c : Dev nD) : (W3 m ρ c (Proc.devRef .tc main_v6) : S64x16384x64.Idx → F .f32)
    = outer (rows (m ((c : Thread nD τ).loc main_arg0))) (sqNormQ (rows (m ((c : Thread nD τ).loc main_arg0))))
        (sqNormK (rows (m ((c : Thread nD τ).loc main_arg1))))
        (kvRow (rows (m ((c : Thread nD τ).loc main_arg1))) (slabs (m ((c : Thread nD τ).loc main_arg2)))) := by
  rw [← V2_n1 m ρ c, ← V2_n2 m ρ c, ← V2_kv m ρ c, ← V1_q m ρ c, ← V2_q m ρ c]
  exact (W3_arr m ρ c 4).trans (final1_4 (V2 m ρ) c)

/-- The last boundary's contents at the result buffer are `kernelTerm` of the launch memory's arguments. -/
theorem W4_result (c : Dev nD) : (W4 m ρ c (Proc.devRef .tc main_v7) : S8x8x16384x64.Idx → F .f32)
    = kernelTerm (m ((c : Thread nD τ).loc main_arg0)) (m ((c : Thread nD τ).loc main_arg1)) (m ((c : Thread nD τ).loc main_arg2)) := by
  unfold kernelTerm
  rw [← W3_out m ρ c]
  show StableHlo.after hostOps2 (W3 m ρ c) (Proc.devRef .tc main_v7) = _
  after_results
  rfl

end Cert.NormAttn.KTerm

end
-- ==== Proof.Payloads.lean ====
/-
  The bodies' arithmetic read at an index, on the extended reals. A lane sum from the zero word is the plain sum of
  its operands; a matrix product into a zero accumulator is the plain sum over the contracted axis of the products
  (over an axis of length one: the single product); shape casts that add or drop unit axes and broadcasts keep the
  entry at the matching coordinates. So the first launch's three stores are `∑ₛ x s · x s` (twice) and
  `(∑ₜ x t · w t e) · 1`, and the second launch's store is `x s · (kv e · (n₁ · n₂)^(-1/2))`.
-/
import proofs.«148077_j37031208026419_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.NormAttn.Payloads

open Cert.KernelIdeal Cert.KernelIdeal.Gen Idealize.ShloMosaic Idealize.ShloMosaic.ValueIdx

/-- The sum of the squares along the lanes of a `[1, 16384]` row, read at its one index. -/
theorem laneSumSq (y : FVec Ideal S1x16384 .f32) (h : S1x16384.Reduces [1] S1) (hφ : FKind.Formats .f32)
    (hacc : (0x00000000#32 : BitVec 32) = 0x00000000#32) :
    multiReduction (F := Ideal) .add [1] S1 (mulf y y) 0x00000000#32 h hφ hacc (ix1 (0 : Fin 1))
      = ∑ s : Fin 16384, y (ix2 (0 : Fin 1) s) * y (ix2 (0 : Fin 1) s) := by
  refine (Ideal.multiReduction_add_single (mulf y y) 0x00000000#32 h hφ hacc (ix1 (0 : Fin 1))).trans ?_
  refine Finset.sum_congr rfl fun s _ => ?_
  have e : h.lift (ix1 (0 : Fin 1)) s = ix2 (0 : Fin 1) s := by
    funext a
    match a with
    | ⟨0, _⟩ => exact Fin.ext rfl
    | ⟨1, _⟩ => exact Fin.ext rfl
  rw [e]
  rfl

/-- The first squared norm the kernel stores: the lane sum of the squares of its `[1, 1, 16384]` operand. -/
theorem pay2_apply (x : Vec Ideal S1x1x16384 .f32) :
    k0_pay2 (F := Ideal) x (ix3 (0 : Fin 1) (0 : Fin 1) (0 : Fin 1)) = ∑ s : Fin 16384, x (ix3 (0 : Fin 1) (0 : Fin 1) s) * x (ix3 (0 : Fin 1) (0 : Fin 1) s) := by
  unfold k0_pay2
  refine (shapeCast_ab_1ab_apply _ _ (0 : Fin 1) (0 : Fin 1) (0 : Fin 1)).trans ?_
  refine (shapeCast_a_1a_apply _ _ (0 : Fin 1) (0 : Fin 1)).trans ?_
  refine (laneSumSq _ _ _ _).trans ?_
  refine Finset.sum_congr rfl fun s _ => ?_
  rw [shapeCast_1ab_ab_apply]

/-- The second squared norm the kernel stores: the same lane sum of squares, of the other operand. -/
theorem pay3_apply (x : Vec Ideal S1x1x16384 .f32) :
    k0_pay3 (F := Ideal) x (ix3 (0 : Fin 1) (0 : Fin 1) (0 : Fin 1)) = ∑ s : Fin 16384, x (ix3 (0 : Fin 1) (0 : Fin 1) s) * x (ix3 (0 : Fin 1) (0 : Fin 1) s) := by
  unfold k0_pay3 k0_pay1
  refine (shapeCast_ab_1ab_apply _ _ (0 : Fin 1) (0 : Fin 1) (0 : Fin 1)).trans ?_
  refine (shapeCast_a_1a_apply _ _ (0 : Fin 1) (0 : Fin 1)).trans ?_
  refine (laneSumSq _ _ _ _).trans ?_
  refine Finset.sum_congr rfl fun s _ => ?_
  rw [shapeCast_1ab_ab_apply]

/-- In the row-times-matrix product the right operand's column coordinate is the output's column. -/
theorem rowMatmul_rhs_1 (i : S1x64.Idx) (q : dot_S1x16384_S16384x64_S1x64_1_0_0_1_n_n.contr.Idx) :
    (dot_S1x16384_S16384x64_S1x64_1_0_0_1_n_n.rhsIdx i q 1).val = (i 1).val := by
  unfold DotDims.rhsIdx
  rw [dif_neg (show ¬(1 : Fin S16384x64.rank) ∈ dot_S1x16384_S16384x64_S1x64_1_0_0_1_n_n.rhsBatch by decide),
    dif_pos (show (1 : Fin S16384x64.rank) ∈ dot_S1x16384_S16384x64_S1x64_1_0_0_1_n_n.rhsNonContracting by decide)]
  rfl

/-- The row-times-matrix product `[1, 16384] × [16384, 64]` into the zero accumulator, read at column `e`: the sum over
    the contracted axis of the row's entry times the matrix's. -/
theorem rowMatmul_apply (y : FVec Ideal S1x16384 .f32) (m : FVec Ideal S16384x64 .f32) (e : Fin 64) :
    matmul (F := Ideal) dot_S1x16384_S16384x64_S1x64_1_0_0_1_n_n (some .fp32) y m (constant (F := Ideal) S1x64 .f32 0x00000000#32)
        (ix2 (0 : Fin 1) e)
      = ∑ t : Fin 16384, y (ix2 (0 : Fin 1) t) * m (ix2 t e) := by
  refine (Ideal.matmul_constant_zero_apply dot_S1x16384_S16384x64_S1x64_1_0_0_1_n_n (some .fp32) y m (ix2 (0 : Fin 1) e)).trans ?_
  rw [← Equiv.sum_comp (contrEquiv1 dot_S1x16384_S16384x64_S1x64_1_0_0_1_n_n 16384 rfl rfl).symm]
  refine Finset.sum_congr rfl fun t _ => ?_
  have ht := contrEquiv1_symm_val dot_S1x16384_S16384x64_S1x64_1_0_0_1_n_n 16384 rfl rfl t
  have el : dot_S1x16384_S16384x64_S1x64_1_0_0_1_n_n.lhsIdx (ix2 (0 : Fin 1) e)
      ((contrEquiv1 dot_S1x16384_S16384x64_S1x64_1_0_0_1_n_n 16384 rfl rfl).symm t) = ix2 (0 : Fin 1) t :=
    funext fun a => Fin.ext (by
      match a with
      | ⟨0, _⟩ =>
        have := (dot_S1x16384_S16384x64_S1x64_1_0_0_1_n_n.lhsIdx (ix2 (0 : Fin 1) e)
          ((contrEquiv1 dot_S1x16384_S16384x64_S1x64_1_0_0_1_n_n 16384 rfl rfl).symm t) ⟨0, by decide⟩).isLt
        show _ = 0
        exact Nat.lt_one_iff.mp this
      | ⟨1, _⟩ => exact (dot_S1x16384_S16384x64_S1x64_1_0_0_1_n_n.lhsIdx_val_of_single rfl _ _).trans ht)
  have er : dot_S1x16384_S16384x64_S1x64_1_0_0_1_n_n.rhsIdx (ix2 (0 : Fin 1) e)
      ((contrEquiv1 dot_S1x16384_S16384x64_S1x64_1_0_0_1_n_n 16384 rfl rfl).symm t) = ix2 t e :=
    funext fun a => Fin.ext (by
      match a with
      | ⟨0, _⟩ => exact (dot_S1x16384_S16384x64_S1x64_1_0_0_1_n_n.rhsIdx_val_of_single rfl _ _).trans ht
      | ⟨1, _⟩ => exact rowMatmul_rhs_1 _ _)
  rw [el, er]

/-- The key-value row the kernel stores, at column `e`: the row-times-matrix sum, times the broadcast float word of `1.0`. -/
theorem pay4_apply (x : Vec Ideal S1x1x16384 .f32) (w : Vec Ideal S1x16384x64 .f32) (e : Fin 64) :
    k0_pay4 (F := Ideal) x w (ix3 (0 : Fin 1) (0 : Fin 1) e) = (∑ t : Fin 16384, x (ix3 (0 : Fin 1) (0 : Fin 1) t) * w (ix3 (0 : Fin 1) t e)) * Ideal.ofBits .f32 0x3F800000#32 := by
  unfold k0_pay4 k0_pay1
  refine (shapeCast_ab_1ab_apply _ _ (0 : Fin 1) (0 : Fin 1) e).trans ?_
  refine (mulf_apply _ _ _).trans ?_
  refine congrArg₂ (· * ·) ?_ rfl
  refine (rowMatmul_apply _ _ e).trans ?_
  refine Finset.sum_congr rfl fun t _ => ?_
  rw [shapeCast_1ab_ab_apply, shapeCast_1ab_ab_apply]

/-- In the outer product the left operand's lane coordinate is the output's row. -/
theorem outer_lhs_1 (i : S16384x64.Idx) (q : dot_S1x16384_S1x64_S16384x64_0_0_1_1_n_n.contr.Idx) :
    (dot_S1x16384_S1x64_S16384x64_0_0_1_1_n_n.lhsIdx i q 1).val = (i 0).val := by
  unfold DotDims.lhsIdx
  rw [dif_neg (show ¬(1 : Fin S1x16384.rank) ∈ dot_S1x16384_S1x64_S16384x64_0_0_1_1_n_n.lhsBatch by decide),
    dif_pos (show (1 : Fin S1x16384.rank) ∈ dot_S1x16384_S1x64_S16384x64_0_0_1_1_n_n.lhsNonContracting by decide)]
  rfl

/-- In the outer product the right operand's lane coordinate is the output's column. -/
theorem outer_rhs_1 (i : S16384x64.Idx) (q : dot_S1x16384_S1x64_S16384x64_0_0_1_1_n_n.contr.Idx) :
    (dot_S1x16384_S1x64_S16384x64_0_0_1_1_n_n.rhsIdx i q 1).val = (i 1).val := by
  unfold DotDims.rhsIdx
  rw [dif_neg (show ¬(1 : Fin S1x64.rank) ∈ dot_S1x16384_S1x64_S16384x64_0_0_1_1_n_n.rhsBatch by decide),
    dif_pos (show (1 : Fin S1x64.rank) ∈ dot_S1x16384_S1x64_S16384x64_0_0_1_1_n_n.rhsNonContracting by decide)]
  rfl

/-- The product `[1, 16384]ᵀ × [1, 64]` contracting the unit axis, into the zero accumulator, read at `(s, e)`: the sum
    over the one-element axis has one term, the row's entry `s` times the other row's entry `e`. -/
theorem outerMatmul_apply (y : FVec Ideal S1x16384 .f32) (r : FVec Ideal S1x64 .f32) (s : Fin 16384) (e : Fin 64) :
    matmul (F := Ideal) dot_S1x16384_S1x64_S16384x64_0_0_1_1_n_n (some .fp32) y r (constant (F := Ideal) S16384x64 .f32 0x00000000#32)
        (ix2 s e)
      = y (ix2 (0 : Fin 1) s) * r (ix2 (0 : Fin 1) e) := by
  refine (Ideal.matmul_constant_zero_apply dot_S1x16384_S1x64_S16384x64_0_0_1_1_n_n (some .fp32) y r (ix2 s e)).trans ?_
  rw [← Equiv.sum_comp (contrEquiv1 dot_S1x16384_S1x64_S16384x64_0_0_1_1_n_n 1 rfl rfl).symm, Fin.sum_univ_one]
  have el : dot_S1x16384_S1x64_S16384x64_0_0_1_1_n_n.lhsIdx (ix2 s e)
      ((contrEquiv1 dot_S1x16384_S1x64_S16384x64_0_0_1_1_n_n 1 rfl rfl).symm 0) = ix2 (0 : Fin 1) s :=
    funext fun a => Fin.ext (by
      match a with
      | ⟨0, _⟩ =>
        have := (dot_S1x16384_S1x64_S16384x64_0_0_1_1_n_n.lhsIdx (ix2 s e)
          ((contrEquiv1 dot_S1x16384_S1x64_S16384x64_0_0_1_1_n_n 1 rfl rfl).symm 0) ⟨0, by decide⟩).isLt
        show _ = 0
        exact Nat.lt_one_iff.mp this
      | ⟨1, _⟩ => exact outer_lhs_1 _ _)
  have er : dot_S1x16384_S1x64_S16384x64_0_0_1_1_n_n.rhsIdx (ix2 s e)
      ((contrEquiv1 dot_S1x16384_S1x64_S16384x64_0_0_1_1_n_n 1 rfl rfl).symm 0) = ix2 (0 : Fin 1) e :=
    funext fun a => Fin.ext (by
      match a with
      | ⟨0, _⟩ =>
        have := (dot_S1x16384_S1x64_S16384x64_0_0_1_1_n_n.rhsIdx (ix2 s e)
          ((contrEquiv1 dot_S1x16384_S1x64_S16384x64_0_0_1_1_n_n 1 rfl rfl).symm 0) ⟨0, by decide⟩).isLt
        show _ = 0
        exact Nat.lt_one_iff.mp this
      | ⟨1, _⟩ => exact outer_rhs_1 _ _)
  rw [el, er]

/-- A `[1, 1]` array broadcast to `[1, 64]` reads its one entry everywhere. -/
theorem broadcastTo_11_1b_apply {α : Type} (v : S1x1.Idx → α) (h : S1x1.Broadcasts S1x64) (e : Fin 64) :
    broadcastTo S1x64 v h (ix2 (0 : Fin 1) e) = v (ix2 (0 : Fin 1) (0 : Fin 1)) := by
  refine broadcastTo_apply v h (ix2 (0 : Fin 1) e) (ix2 (0 : Fin 1) (0 : Fin 1)) fun ax => ?_
  match ax with
  | ⟨0, _⟩ => rfl
  | ⟨1, _⟩ => rfl

/-- The result block the second kernel stores, at `(s, e)`: the row's entry `s` times the key-value entry `e` scaled by
    the reciprocal square root of the product of the two stored squared norms. -/
theorem outer_apply (x : Vec Ideal S1x1x16384 .f32) (n1 n2 : Vec Ideal S1x1x1 .f32) (kv : Vec Ideal S1x1x64 .f32) (s : Fin 16384) (e : Fin 64) :
    k1_pay1 (F := Ideal) x n1 n2 kv (ix3 (0 : Fin 1) s e) = x (ix3 (0 : Fin 1) (0 : Fin 1) s) * (kv (ix3 (0 : Fin 1) (0 : Fin 1) e) * Ideal.rsqrt (n1 (ix3 (0 : Fin 1) (0 : Fin 1) (0 : Fin 1)) * n2 (ix3 (0 : Fin 1) (0 : Fin 1) (0 : Fin 1)))) := by
  unfold k1_pay1
  refine (shapeCast_ab_1ab_apply _ _ (0 : Fin 1) s e).trans ?_
  refine (outerMatmul_apply _ _ s e).trans ?_
  refine congrArg₂ (· * ·) (shapeCast_1ab_ab_apply _ _ _ _) ?_
  refine (mulf_apply _ _ _).trans ?_
  refine congrArg₂ (· * ·) (shapeCast_1ab_ab_apply _ _ _ _) ?_
  refine (broadcastTo_11_1b_apply _ _ e).trans ?_
  show Ideal.rsqrt (_ * _) = Ideal.rsqrt (_ * _)
  rw [shapeCast_1ab_ab_apply, shapeCast_1ab_ab_apply]

end Cert.NormAttn.Payloads

end
-- ==== Proof.KernelValue.lean ====
/-
  The program's result read at an index, on the extended reals. Head `(b, h)` is row `8·b + h` of the laid-out
  arrays, so entry `(b, h, s, e)` of the result is entry `(s, e)` of that head's scaled outer product: the query
  `q s` times the key-value entry `(kᵀv) e · 1` times the reciprocal square root of the product of the two squared
  norms — the first arrangement of module `Spec`.
-/
import proofs.«148077_j37031208026419_2_alg».proof.Proof.KernelTerm
import proofs.«148077_j37031208026419_2_alg».proof.Proof.Payloads
import proofs.«148077_j37031208026419_2_alg».proof.Proof.Spec
import Idealize.ShloMosaic.Lib.Pipeline.Value
import Idealize.ShloMosaic.Lib.ValueIdx

set_option maxRecDepth 16384

noncomputable section

open scoped BigOperators

namespace Cert.NormAttn.KValue

open Idealize.ShloMosaic Idealize.ShloMosaic.ValueIdx Idealize.ShloMosaic.View
open Cert.KernelIdeal Cert.KernelIdeal.Gen Cert.NormAttn Cert.NormAttn.Blocks Cert.NormAttn.KTerm

/-- The row of the laid-out arrays that holds head `(b, h)`. -/
def hd (b h : Fin 8) : Fin 64 := ⟨b.val * 8 + h.val, by have := b.isLt; have := h.isLt; omega⟩

section Layout
variable {F : FTy → Type} [FloatOps F]

/-- Row `8·b + h` of the laid-out queries (or keys), at `s`, is the argument's entry `(b, h, s, 0)`. -/
theorem rows_apply (x : FVec F S8x8x16384x1 .f32) (b h : Fin 8) (s : Fin 16384) :
    rows x (ix3 (hd b h) (0 : Fin 1) s) = x (ix4 b h s (0 : Fin 1)) := by
  unfold rows
  refine (broadcastInDim_apply _ _ _ (ix3 (hd b h) (0 : Fin 1) s) (ix2 (hd b h) s)
    (fun a => match a with
      | ⟨0, _⟩ => by show (hd b h).val = if (64 : Nat) = 1 then 0 else (hd b h).val; rw [if_neg (by decide)]
      | ⟨1, _⟩ => by show s.val = if (16384 : Nat) = 1 then 0 else s.val; rw [if_neg (by decide)])).trans ?_
  exact shapeCast_apply _ _ (ix2 (hd b h) s) (ix4 b h s (0 : Fin 1))
    (by rw [Shape.rowMajor_val_four, Shape.rowMajor_val_two]
        show ((b.val * 8 + h.val) * 16384 + s.val) * 1 + 0 = (b.val * 8 + h.val) * 16384 + s.val
        omega)

/-- Slab `8·b + h` of the laid-out values, at `(s, e)`, is the argument's entry `(b, h, s, e)`. -/
theorem slabs_apply (v : FVec F S8x8x16384x64 .f32) (b h : Fin 8) (s : Fin 16384) (e : Fin 64) :
    slabs v (ix3 (hd b h) s e) = v (ix4 b h s e) := by
  unfold slabs
  exact shapeCast_apply _ _ (ix3 (hd b h) s e) (ix4 b h s e)
    (by rw [Shape.rowMajor_val_four, Shape.rowMajor_val_three]
        show ((b.val * 8 + h.val) * 16384 + s.val) * 64 + e.val = ((b.val * 8 + h.val) * 16384 + s.val) * 64 + e.val
        rfl)

end Layout

variable (q k : FVec Ideal S8x8x16384x1 .f32) (v : FVec Ideal S8x8x16384x64 .f32)

/-- The first launch's first output at head `(b, h)`: the queries' squared norm. -/
theorem sqNormQ_apply (x : FVec Ideal S8x8x16384x1 .f32) (b h : Fin 8) :
    sqNormQ (F := Ideal) (rows x) (ix3 (hd b h) (0 : Fin 1) (0 : Fin 1)) = normSq x b h := by
  show k0_pay2 (F := Ideal) (rowOf (rows x) (hd b h)) (ix3 (0 : Fin 1) (0 : Fin 1) (0 : Fin 1)) = _
  rw [Payloads.pay2_apply]
  unfold normSq
  refine Finset.sum_congr rfl fun s _ => ?_
  have e1 : rowOf (rows x) (hd b h) (ix3 (0 : Fin 1) (0 : Fin 1) s) = x (ix4 b h s (0 : Fin 1)) := rows_apply x b h s
  rw [e1]

/-- The first launch's second output at head `(b, h)`: the keys' squared norm. -/
theorem sqNormK_apply (x : FVec Ideal S8x8x16384x1 .f32) (b h : Fin 8) :
    sqNormK (F := Ideal) (rows x) (ix3 (hd b h) (0 : Fin 1) (0 : Fin 1)) = normSq x b h := by
  show k0_pay3 (F := Ideal) (rowOf (rows x) (hd b h)) (ix3 (0 : Fin 1) (0 : Fin 1) (0 : Fin 1)) = _
  rw [Payloads.pay3_apply]
  unfold normSq
  refine Finset.sum_congr rfl fun s _ => ?_
  have e1 : rowOf (rows x) (hd b h) (ix3 (0 : Fin 1) (0 : Fin 1) s) = x (ix4 b h s (0 : Fin 1)) := rows_apply x b h s
  rw [e1]

/-- The first launch's third output at head `(b, h)`, column `e`: the key-value entry times one. -/
theorem kvRow_apply (b h : Fin 8) (e : Fin 64) :
    kvRow (F := Ideal) (rows k) (slabs v) (ix3 (hd b h) (0 : Fin 1) e) = keyValue k v b h e * one := by
  show k0_pay4 (F := Ideal) (rowOf (rows k) (hd b h)) (rowOf (slabs v) (hd b h)) (ix3 (0 : Fin 1) (0 : Fin 1) e) = _
  rw [Payloads.pay4_apply]
  unfold keyValue
  refine congrArg (· * one) (Finset.sum_congr rfl fun t _ => ?_)
  have e1 : rowOf (rows k) (hd b h) (ix3 (0 : Fin 1) (0 : Fin 1) t) = k (ix4 b h t (0 : Fin 1)) := rows_apply k b h t
  have e2 : rowOf (slabs v) (hd b h) (ix3 (0 : Fin 1) t e) = v (ix4 b h t e) := slabs_apply v b h t e
  rw [e1, e2]

/-- The program's result at `(b, h, s, e)` is the first arrangement of the specification. -/
theorem kernelTerm_apply (b h : Fin 8) (s : Fin 16384) (e : Fin 64) :
    kernelTerm (F := Ideal) q k v (ix4 b h s e) = attnAt q k v b h s e := by
  unfold kernelTerm
  refine (shapeCast_apply _ _ (ix4 b h s e) (ix3 (hd b h) s e)
    (by rw [Shape.rowMajor_val_three, Shape.rowMajor_val_four]
        show ((b.val * 8 + h.val) * 16384 + s.val) * 64 + e.val = ((b.val * 8 + h.val) * 16384 + s.val) * 64 + e.val
        rfl)).trans ?_
  show k1_pay1 (F := Ideal) (rowOf (rows q) (hd b h)) (rowOf (sqNormQ (rows q)) (hd b h)) (rowOf (sqNormK (rows k)) (hd b h))
      (rowOf (kvRow (rows k) (slabs v)) (hd b h)) (ix3 (0 : Fin 1) s e) = _
  rw [Payloads.outer_apply]
  have e1 : rowOf (rows q) (hd b h) (ix3 (0 : Fin 1) (0 : Fin 1) s) = q (ix4 b h s (0 : Fin 1)) := rows_apply q b h s
  have e2 : rowOf (kvRow (F := Ideal) (rows k) (slabs v)) (hd b h) (ix3 (0 : Fin 1) (0 : Fin 1) e) = keyValue k v b h e * one :=
    kvRow_apply k v b h e
  have e3 : rowOf (sqNormQ (F := Ideal) (rows q)) (hd b h) (ix3 (0 : Fin 1) (0 : Fin 1) (0 : Fin 1)) = normSq q b h :=
    sqNormQ_apply q b h
  have e4 : rowOf (sqNormK (F := Ideal) (rows k)) (hd b h) (ix3 (0 : Fin 1) (0 : Fin 1) (0 : Fin 1)) = normSq k b h :=
    sqNormK_apply k b h
  rw [e1, e2, e3, e4]
  rfl

/-- The program's result is the specification's array. -/
theorem kernelTerm_eq : kernelTerm (F := Ideal) q k v = attn q k v := by
  funext j
  rw [eq_ix4 j]
  exact kernelTerm_apply q k v (j 0) (j 1) (j 2) (j 3)

end Cert.NormAttn.KValue

end
-- ==== Proof.lean ====
/-
  The certificate of a unit-key linear attention with normalised queries and keys: for every head the result is
  `(q / ‖q‖) · ((k / ‖k‖)ᵀ v)`. The kernel computes it in two launches — the two squared norms and the key-value
  row `kᵀv` first, then the outer product of `q` with `kᵀv` scaled by ONE reciprocal square root
  `(‖q‖² · ‖k‖²)^(-1/2)` — and the reference divides `q` and `k` by their norms before the two products. On the
  extended reals the two arrangements agree where every entry is a real number and both squared norms are positive
  (at a zero norm the reference's quotient `0 / 0` is not a number while the kernel's `0 · ∞` is `0`); the
  precondition states exactly that.
  Modules: `Spec` (the two arrangements), `Algebra` (they agree), `PreFacts` (what the precondition gives),
  `RefSide` (the reference, operation by operation, is the second arrangement), `Regions` (what each launch leaves
  in its output arrays), `KernelTerm` and `KernelRun` (the program's result as one term of its arguments, and its run),
  `Payloads` and `KernelValue` (that term read at an index is the first arrangement).
-/
import proofs.«148077_j37031208026419_2_alg».proof.Defs
import proofs.«148077_j37031208026419_2_alg».proof.Proof.Gen.Kernel
import proofs.«148077_j37031208026419_2_alg».proof.Proof.Gen.Kernel.Skeleton
import proofs.«148077_j37031208026419_2_alg».proof.Proof.Gen.Kernel.Launch
import proofs.«148077_j37031208026419_2_alg».proof.Proof.Gen.Kernel.Points
import proofs.«148077_j37031208026419_2_alg».proof.Proof.Gen.Kernel.Frame
import proofs.«148077_j37031208026419_2_alg».proof.Proof.Gen.KernelIdeal
import proofs.«148077_j37031208026419_2_alg».proof.Proof.Gen.KernelIdeal.Skeleton
import proofs.«148077_j37031208026419_2_alg».proof.Proof.Gen.KernelIdeal.Launch
import proofs.«148077_j37031208026419_2_alg».proof.Proof.Gen.KernelIdeal.Points
import proofs.«148077_j37031208026419_2_alg».proof.Proof.Gen.KernelIdeal.Frame
import proofs.«148077_j37031208026419_2_alg».proof.Proof.Gen.ReferenceIdeal
import proofs.«148077_j37031208026419_2_alg».proof.Proof.Gen.ReferenceIdeal.Run
import proofs.«148077_j37031208026419_2_alg».proof.Proof.Gen.ReferenceIdeal.Read
import proofs.«148077_j37031208026419_2_alg».proof.Proof.Gen.Pre_finite_inputs
import proofs.«148077_j37031208026419_2_alg».proof.Proof.Spec
import proofs.«148077_j37031208026419_2_alg».proof.Proof.Algebra
import proofs.«148077_j37031208026419_2_alg».proof.Proof.PreFacts
import proofs.«148077_j37031208026419_2_alg».proof.Proof.RefSide
import proofs.«148077_j37031208026419_2_alg».proof.Proof.KernelRun
import proofs.«148077_j37031208026419_2_alg».proof.Proof.KernelTerm
import proofs.«148077_j37031208026419_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates faultless with its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array `attn q k v` of the argument arrays: the kernel by reading its two
    launches back (the first arrangement), the reference operation by operation (the second arrangement), which is
    the first wherever the entries are real and the squared norms positive — what the precondition states. -/
theorem algebraic : Cert.algebraic_KernelIdeal_ReferenceIdeal := by
  intro m ρ m' ρ' hpre hagree
  refine ⟨fun c => Cert.NormAttn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.NormAttn.KRun.run_result (F := Ideal) m ρ)
    exact (Cert.NormAttn.KTerm.W4_result (F := Ideal) m ρ c).trans (Cert.NormAttn.KValue.kernelTerm_eq _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, (hagree c).1, (hagree c).2.1, (hagree c).2.2]
    obtain ⟨hq, hk, hv, hA, hB⟩ := Cert.NormAttn.of_pre _ _ _ (hpre c)
    funext j
    rw [Cert.NormAttn.ref_eq]
    exact Cert.NormAttn.refAt_eq_attnAt _ _ _ hq hk hv _ _ (hA _ _) (hB _ _) _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
